-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S1000000x51 : Shape := ⟨2, ![1000000, 51]⟩
abbrev S51 : Shape := ⟨1, ![51]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S1000000x51 : S_.BroadcastsInDim S1000000x51 (![] : Fin 0 → Fin S1000000x51.rank)
  reducesTo_S1000000x51_S_d0_1 : S1000000x51.ReducesTo [0, 1] S_
  bcast_S_S51 : S_.BroadcastsInDim S51 (![] : Fin 0 → Fin S51.rank)
  reducesTo_S51_S_d0 : S51.ReducesTo [0] S_

variable [Facts]

def fn {F : FTy → Type} [FloatOps F] (main_arg0 : FVec F S1000000 .f32) (main_arg1 : FVec F S1000000x51 .f32) (main_arg2 : FVec F S51 .f32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1000000x51 .f32 := Host.absf main_arg1
  let main_cst_0 : FVec F S_ .f32 := constant S_ .f32 0x7F800000#32
  let main_v5 : FVec F S1000000x51 .f32 := broadcastInDim S1000000x51 ![] bcast_S_S1000000x51 main_cst_0
  let main_v6 : IVec S1000000x51 1 := cmpf .olt main_v4 main_v5
  let main_c_1 : IVec S_ 1 := constantI S_ 1 1#1
  let main_v7 : IVec S_ 1 := (fun x v => Host.reduce IntOp.andi x v reducesTo_S1000000x51_S_d0_1 h_S_) main_v6 main_c_1
  let main_v8 : IVec S_ 1 := andi main_v3 main_v7
  let main_v9 : FVec F S51 .f32 := Host.absf main_arg2
  let main_cst_2 : FVec F S_ .f32 := constant S_ .f32 0x7F800000#32
  let main_v10 : FVec F S51 .f32 := broadcastInDim S51 ![] bcast_S_S51 main_cst_2
  let main_v11 : IVec S51 1 := cmpf .olt main_v9 main_v10
  let main_c_3 : IVec S_ 1 := constantI S_ 1 1#1
  let main_v12 : IVec S_ 1 := (fun x v => Host.reduce IntOp.andi x v reducesTo_S51_S_d0 h_S_) main_v11 main_c_3
  let main_v13 : IVec S_ 1 := andi main_v8 main_v12
  main_v13
-- ==== Kernel.lean ====
abbrev S1000000 : Shape := ⟨1, ![1000000]⟩
abbrev S1000000x51 : Shape := ⟨2, ![1000000, 51]⟩
abbrev S51 : Shape := ⟨1, ![51]⟩
abbrev S1000000x1 : Shape := ⟨2, ![1000000, 1]⟩
abbrev S1x51 : Shape := ⟨2, ![1, 51]⟩
abbrev S1000x1 : Shape := ⟨2, ![1000, 1]⟩
abbrev S1000x51 : Shape := ⟨2, ![1000, 51]⟩
abbrev S1x1x51 : Shape := ⟨3, ![1, 1, 51]⟩
abbrev S1x8 : Shape := ⟨2, ![1, 8]⟩
abbrev S1000x8 : Shape := ⟨2, ![1000, 8]⟩
abbrev S1000x8x1 : Shape := ⟨3, ![1000, 8, 1]⟩
abbrev S1000x8x51 : Shape := ⟨3, ![1000, 8, 51]⟩
abbrev S1x3 : Shape := ⟨2, ![1, 3]⟩
abbrev S1000x3 : Shape := ⟨2, ![1000, 3]⟩
abbrev S1000x3x1 : Shape := ⟨3, ![1000, 3, 1]⟩
abbrev S1000x3x51 : Shape := ⟨3, ![1000, 3, 51]⟩

abbrev nBuf : Space → Nat
  | .hbm => 6
  | .vmem => 7
  | .smem => 0
  | _ => 0

abbrev bufTy : (tb : Table) → Fin (tcTables nBuf tb) → BufTy
  | .hbm, ⟨0, _⟩ => ⟨S1000000, .f32⟩
  | .hbm, ⟨1, _⟩ => ⟨S1000000x51, .f32⟩
  | .hbm, ⟨2, _⟩ => ⟨S51, .f32⟩
  | .hbm, ⟨3, _⟩ => ⟨S1000000x1, .f32⟩
  | .hbm, ⟨4, _⟩ => ⟨S1x51, .f32⟩
  | .hbm, ⟨5, _⟩ => ⟨S1000000x51, .f32⟩
  | .local _ .vmem, ⟨0, _⟩ => ⟨S1000x1, .f32⟩
  | .local _ .vmem, ⟨1, _⟩ => ⟨S1000x1, .f32⟩
  | .local _ .vmem, ⟨2, _⟩ => ⟨S1000x51, .f32⟩
  | .local _ .vmem, ⟨3, _⟩ => ⟨S1000x51, .f32⟩
  | .local _ .vmem, ⟨4, _⟩ => ⟨S1x51, .f32⟩
  | .local _ .vmem, ⟨5, _⟩ => ⟨S1000x51, .f32⟩
  | .local _ .vmem, ⟨6, _⟩ => ⟨S1000x51, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x51 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x51 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x51 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1000000_S1000000x1 : S1000000.ShapeCasts S1000000x1
  shapeCasts_S51_S1x51 : S51.ShapeCasts S1x51
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1x51_S1x51_0_0 : ∀ a, (![0, 0] : Fin 2 → Nat) a + S1x51.size a ≤ S1x51.size a
  h_S1x51 : 0 < S1x51.numel
  shapeCasts_S1x51_S1x51 : S1x51.ShapeCasts S1x51
  inb_S1000x51_S1000x51_0_0 : ∀ a, (![0, 0] : Fin 2 → Nat) a + S1000x51.size a ≤ S1000x51.size a
  h_S1000x51 : 0 < S1000x51.numel
  iota_S1x1x51_d2_w32 : S1x1x51.Iotas .tc 32 [2]
  slices_S1x51_o0_0_S1x8 : S1x51.Slices ![0, 0] S1x8
  slices_S1000x51_o0_0_S1000x8 : S1000x51.Slices ![0, 0] S1000x8
  broadcasts_S1000x1_S1000x8 : S1000x1.Broadcasts S1000x8
  broadcasts_S1x8_S1000x8 : S1x8.Broadcasts S1000x8
  shapeCasts_S1000x8_S1000x8x1 : S1000x8.ShapeCasts S1000x8x1
  broadcasts_S1000x8x1_S1000x8x51 : S1000x8x1.Broadcasts S1000x8x51
  broadcasts_S1x1x51_S1000x8x51 : S1x1x51.Broadcasts S1000x8x51
  reduces_S1000x8x51_S1000x51 : S1000x8x51.Reduces [1] S1000x51
  slices_S1x51_o0_8_S1x8 : S1x51.Slices ![0, 8] S1x8
  slices_S1000x51_o0_8_S1000x8 : S1000x51.Slices ![0, 8] S1000x8
  slices_S1x51_o0_16_S1x8 : S1x51.Slices ![0, 16] S1x8
  slices_S1000x51_o0_16_S1000x8 : S1000x51.Slices ![0, 16] S1000x8
  slices_S1x51_o0_24_S1x8 : S1x51.Slices ![0, 24] S1x8
  slices_S1000x51_o0_24_S1000x8 : S1000x51.Slices ![0, 24] S1000x8
  slices_S1x51_o0_32_S1x8 : S1x51.Slices ![0, 32] S1x8
  slices_S1000x51_o0_32_S1000x8 : S1000x51.Slices ![0, 32] S1000x8
  slices_S1x51_o0_40_S1x8 : S1x51.Slices ![0, 40] S1x8
  slices_S1000x51_o0_40_S1000x8 : S1000x51.Slices ![0, 40] S1000x8
  slices_S1x51_o0_48_S1x3 : S1x51.Slices ![0, 48] S1x3
  slices_S1000x51_o0_48_S1000x3 : S1000x51.Slices ![0, 48] S1000x3
  broadcasts_S1000x1_S1000x3 : S1000x1.Broadcasts S1000x3
  broadcasts_S1x3_S1000x3 : S1x3.Broadcasts S1000x3
  shapeCasts_S1000x3_S1000x3x1 : S1000x3.ShapeCasts S1000x3x1
  broadcasts_S1000x3x1_S1000x3x51 : S1000x3x1.Broadcasts S1000x3x51
  broadcasts_S1x1x51_S1000x3x51 : S1x1x51.Broadcasts S1000x3x51
  reduces_S1000x3x51_S1000x51 : S1000x3x51.Reduces [1] S1000x51
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1.size a ≤ S1000000x1.size a
  hwx0_0 : ∀ i : grid0.Coords, EltTy.bits .f32 = 32 ∨ (Rect.block (s := S1000000x1) S1000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x51.size a ≤ S1000000x51.size a
  hwx0_1 : ∀ i : grid0.Coords, EltTy.bits .f32 = 32 ∨ (Rect.block (s := S1000000x51) S1000x51.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x51.size a ≤ S1x51.size a
  hwx0_2 : ∀ i : grid0.Coords, EltTy.bits .f32 = 32 ∨ (Rect.block (s := S1x51) S1x51.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x51.size a ≤ S1000000x51.size a
  hwx0_3 : ∀ i : grid0.Coords, EltTy.bits .f32 = 32 ∨ (Rect.block (s := S1000000x51) S1000x51.size (cc0_transform_3 i) (hinb0_3 i)).WholeWords (EltTy.packing .f32)

variable [Facts₀]

abbrev win0_0 : Pipeline.Window sig grid0 :=
  Pipeline.Window.ofSpec (Memref.whole main_v0) S1000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x51.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x51.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1000x51.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000 : Shape := ⟨1, ![1000000]⟩
abbrev S1000000x51 : Shape := ⟨2, ![1000000, 51]⟩
abbrev S51 : Shape := ⟨1, ![51]⟩
abbrev S1x51 : Shape := ⟨2, ![1, 51]⟩
abbrev S1000000x1 : Shape := ⟨2, ![1000000, 1]⟩
abbrev S_ : Shape := ⟨0, ![]⟩
abbrev S1000000x51x1 : Shape := ⟨3, ![1000000, 51, 1]⟩
abbrev S1000000x51x2 : Shape := ⟨3, ![1000000, 51, 2]⟩

abbrev nBuf : Space → Nat
  | .hbm => 76
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1000000x51, .f32⟩
  | .hbm, ⟨2, _⟩ => ⟨S51, .f32⟩
  | .hbm, ⟨3, _⟩ => ⟨S1x51, .f32⟩
  | .hbm, ⟨4, _⟩ => ⟨S1000000x1, .f32⟩
  | .hbm, ⟨5, _⟩ => ⟨S1000000x51, .f32⟩
  | .hbm, ⟨6, _⟩ => ⟨S1000000x51, .f32⟩
  | .hbm, ⟨7, _⟩ => ⟨S1000000x51, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1000000x51, .f32⟩
  | .hbm, ⟨12, _⟩ => ⟨S1000000x51, .f32⟩
  | .hbm, ⟨13, _⟩ => ⟨S_, .f32⟩
  | .hbm, ⟨14, _⟩ => ⟨S1000000x51, .f32⟩
  | .hbm, ⟨15, _⟩ => ⟨S1000000x51, .f32⟩
  | .hbm, ⟨16, _⟩ => ⟨S_, .f32⟩
  | .hbm, ⟨17, _⟩ => ⟨S1000000x51, .f32⟩
  | .hbm, ⟨18, _⟩ => ⟨S1000000x51, .f32⟩
  | .hbm, ⟨19, _⟩ => ⟨S_, .f32⟩
  | .hbm, ⟨20, _⟩ => ⟨S1000000x51, .f32⟩
  | .hbm, ⟨21, _⟩ => ⟨S1000000x51, .f32⟩
  | .hbm, ⟨22, _⟩ => ⟨S1000000x51, .f32⟩
  | .hbm, ⟨23, _⟩ => ⟨S1000000x51, .f32⟩
  | .hbm, ⟨24, _⟩ => ⟨S1000000x51, .i1⟩
  | .hbm, ⟨25, _⟩ => ⟨S1000000x51, .f32⟩
  | .hbm, ⟨26, _⟩ => ⟨S_, .f32⟩
  | .hbm, ⟨27, _⟩ => ⟨S_, .f32⟩
  | .hbm, ⟨28, _⟩ => ⟨S1000000x51, .f32⟩
  | .hbm, ⟨29, _⟩ => ⟨S1000000x51, .f32⟩
  | .hbm, ⟨30, _⟩ => ⟨S1000000x51, .f32⟩
  | .hbm, ⟨31, _⟩ => ⟨S1000000x51, .i32⟩
  | .hbm, ⟨32, _⟩ => ⟨S1000000x51, .i32⟩
  | .hbm, ⟨33, _⟩ => ⟨S1000000, .i32⟩
  | .hbm, ⟨34, _⟩ => ⟨S1000000x1, .i32⟩
  | .hbm, ⟨35, _⟩ => ⟨S1000000x51, .i32⟩
  | .hbm, ⟨36, _⟩ => ⟨S_, .f32⟩
  | .hbm, ⟨37, _⟩ => ⟨S1000000x51, .f32⟩
  | .hbm, ⟨38, _⟩ => ⟨S1000000x51, .f32⟩
  | .hbm, ⟨39, _⟩ => ⟨S_, .i32⟩
  | .hbm, ⟨40, _⟩ => ⟨S1000000x51, .i32⟩
  | .hbm, ⟨41, _⟩ => ⟨S1000000x51, .i1⟩
  | .hbm, ⟨42, _⟩ => ⟨S_, .i32⟩
  | .hbm, ⟨43, _⟩ => ⟨S1000000x51, .i32⟩
  | .hbm, ⟨44, _⟩ => ⟨S1000000x51, .i32⟩
  | .hbm, ⟨45, _⟩ => ⟨S1000000x51, .i32⟩
  | .hbm, ⟨46, _⟩ => ⟨S_, .i32⟩
  | .hbm, ⟨47, _⟩ => ⟨S1000000x51, .i32⟩
  | .hbm, ⟨48, _⟩ => ⟨S1000000x51, .i1⟩
  | .hbm, ⟨49, _⟩ => ⟨S_, .i32⟩
  | .hbm, ⟨50, _⟩ => ⟨S1000000x51, .i32⟩
  | .hbm, ⟨51, _⟩ => ⟨S1000000x51, .i32⟩
  | .hbm, ⟨52, _⟩ => ⟨S1000000x51, .i32⟩
  | .hbm, ⟨53, _⟩ => ⟨S1000000x51x1, .i32⟩
  | .hbm, ⟨54, _⟩ => ⟨S1000000x51x1, .i32⟩
  | .hbm, ⟨55, _⟩ => ⟨S1000000x51x2, .i32⟩
  | .hbm, ⟨56, _⟩ => ⟨S1000000x51, .f32⟩
  | .hbm, ⟨57, _⟩ => ⟨S1000000x51, .f32⟩
  | .hbm, ⟨58, _⟩ => ⟨S_, .i32⟩
  | .hbm, ⟨59, _⟩ => ⟨S1000000x51, .i32⟩
  | .hbm, ⟨60, _⟩ => ⟨S1000000x51, .i1⟩
  | .hbm, ⟨61, _⟩ => ⟨S_, .i32⟩
  | .hbm, ⟨62, _⟩ => ⟨S1000000x51, .i32⟩
  | .hbm, ⟨63, _⟩ => ⟨S1000000x51, .i32⟩
  | .hbm, ⟨64, _⟩ => ⟨S1000000x51, .i32⟩
  | .hbm, ⟨65, _⟩ => ⟨S_, .i32⟩
  | .hbm, ⟨66, _⟩ => ⟨S1000000x51, .i32⟩
  | .hbm, ⟨67, _⟩ => ⟨S1000000x51, .i1⟩
  | .hbm, ⟨68, _⟩ => ⟨S_, .i32⟩
  | .hbm, ⟨69, _⟩ => ⟨S1000000x51, .i32⟩
  | .hbm, ⟨70, _⟩ => ⟨S1000000x51, .i32⟩
  | .hbm, ⟨71, _⟩ => ⟨S1000000x51, .i32⟩
  | .hbm, ⟨72, _⟩ => ⟨S1000000x51x1, .i32⟩
  | .hbm, ⟨73, _⟩ => ⟨S1000000x51x1, .i32⟩
  | .hbm, ⟨74, _⟩ => ⟨S1000000x51x2, .i32⟩
  | .hbm, ⟨75, _⟩ => ⟨S1000000x51, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  bcast_S51_S1x51_1 : S51.BroadcastsInDim S1x51 (![1] : Fin 1 → Fin S1x51.rank)
  bcast_S1000000_S1000000x1_0 : S1000000.BroadcastsInDim S1000000x1 (![0] : Fin 1 → Fin S1000000x1.rank)
  bcast_S1x51_S1000000x51_0_1 : S1x51.BroadcastsInDim S1000000x51 (![0, 1] : Fin 2 → Fin S1000000x51.rank)
  bcast_S1000000x1_S1000000x51_0_1 : S1000000x1.BroadcastsInDim S1000000x51 (![0, 1] : Fin 2 → Fin S1000000x51.rank)
  bcast_S_S1000000x51 : S_.BroadcastsInDim S1000000x51 (![] : Fin 0 → Fin S1000000x51.rank)
  bcast_S1000000x51_S1000000x51x1_0_1 : S1000000x51.BroadcastsInDim S1000000x51x1 (![0, 1] : Fin 2 → Fin S1000000x51x1.rank)
  concatenates_S1000000x51x1_S1000000x51x1_S1000000x51x2_d2 : Shape.Concatenates [S1000000x51x1, S1000000x51x1] S1000000x51x2 2
  scatter_S1000000x51_S1000000x51x2_S1000000x51_n_01_01_2_wf : ScatterDims.WF S1000000x51 S1000000x51x2 S1000000x51 [] [0, 1] [0, 1] 2

variable [Facts₀]

def scatter_S1000000x51_S1000000x51x2_S1000000x51_n_01_01_2 : ScatterDims S1000000x51 S1000000x51x2 S1000000x51 where
  updateWindowDims := []
  insertedWindowDims := [0, 1]
  scatterDimsToOperandDims := [0, 1]
  indexVectorDim := 2
  wf := scatter_S1000000x51_S1000000x51x2_S1000000x51_n_01_01_2_wf

class Facts : Prop extends Facts₀ where

variable [Facts]
-- ==== Proof.FiniteInputs.lean ====
/- The values of five f32 literals as extended reals, and: the finiteness precondition
   makes every input entry a real number. -/
import proofs.«172951_j42563125903609_2_alg».proof.Pre_finite_inputs
import Idealize.ShloMosaic.PureOps.Ideal
import Idealize.ShloMosaic.Lib.ReduceAll
import Idealize.ShloMosaic.Lib.ValueIdx

noncomputable section

namespace Cert.Bellman

open Idealize.ShloMosaic

/-- The pattern 0xC1200000 (sign 1, exponent field 130, fraction 0x200000) denotes -1.25 * 2^3 = -10. -/
theorem lit_neg10 : Ideal.ofBits .f32 0xC1200000#32 = ((-10 : ℝ) : EReal) := by
  simp [Ideal.ofBits, Ideal.ieee, -EReal.coe_mul]; norm_num

/-- The pattern 0x41200000 (exponent field 130, fraction 0x200000) denotes 1.25 * 2^3 = 10. -/
theorem lit_10 : Ideal.ofBits .f32 0x41200000#32 = ((10 : ℝ) : EReal) := by
  simp [Ideal.ofBits, Ideal.ieee, -EReal.coe_mul]; norm_num

/-- The pattern 0x3F800000 (exponent field 127, fraction 0) denotes 1. -/
theorem lit_1 : Ideal.ofBits .f32 0x3F800000#32 = ((1 : ℝ) : EReal) := by
  simp [Ideal.ofBits, Ideal.ieee, -EReal.coe_mul]; norm_num

/-- The all-zero pattern denotes 0. -/
theorem lit_0 : Ideal.ofBits .f32 0x00000000#32 = ((0 : ℝ) : EReal) := by
  simp [Ideal.ofBits, Ideal.ieee]

/-- The pattern 0x3ECCCCCD (exponent field 125, fraction 0x4CCCCD = 5033165) denotes
    (8388608 + 5033165) * 2^-23 * 2^-2 = 13421773 / 33554432, the f32 nearest to 0.4. -/
theorem lit_delta : Ideal.ofBits .f32 0x3ECCCCCD#32 = ((13421773 / 33554432 : ℝ) : EReal) := by
  simp [Ideal.ofBits, Ideal.ieee, -EReal.coe_mul]; norm_num

/-- An extended real whose absolute value max x (-x) lies strictly below +∞ is a real number:
    at ⊥ and at ⊤ that maximum is ⊤ itself. -/
theorem real_of_abs_lt_top (x : EReal) (h : max x (-x) < ⊤) : ∃ r : ℝ, x = (r : EReal) := by
  induction x using EReal.rec with
  | bot => simp at h
  | coe r => exact ⟨r, rfl⟩
  | top => simp at h

/-- The pattern 0x7F800000 (exponent field all ones, fraction 0, sign 0) denotes +∞. -/
theorem lit_inf : Ideal.ofBits .f32 0x7F800000#32 = (⊤ : EReal) := by
  simp [Ideal.ofBits, Ideal.ieee]

/-- One entry of the test |x| < +∞ that came out true: the entry is a real number. -/
theorem real_of_cmp (x : Ideal .f32)
    (h : FloatOps.cmpf (F := Ideal) .olt (FloatOps.hostAbsf x) (FloatOps.ofBits .f32 0x7F800000#32) = 1#1) :
    ∃ r : ℝ, x = (r : EReal) := by
  have h' : BitVec.ofBool (decide (max x (-x) < Ideal.ofBits .f32 0x7F800000#32)) = 1#1 := h
  rw [lit_inf] at h'
  have hb : ∀ b : Bool, BitVec.ofBool b = 1#1 → b = true := by decide
  exact real_of_abs_lt_top x (of_decide_eq_true (hb _ h'))

/-- The rank-0 result shape has exactly one index. -/
instance : Subsingleton Cert.Pre_finite_inputs.S_.Idx := ⟨fun a b => funext fun d => d.elim0⟩

/-- The precondition "all three arrays have |x| < +∞ everywhere" makes every entry of every input a real number. -/
theorem real_of_pre [Cert.Pre_finite_inputs.Facts]
    (x0 : FVec Ideal Cert.Pre_finite_inputs.S1000000 .f32) (x1 : FVec Ideal Cert.Pre_finite_inputs.S1000000x51 .f32)
    (x2 : FVec Ideal Cert.Pre_finite_inputs.S51 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn, andi] at h0
  rw [IntOp.andi_eq_one, IntOp.andi_eq_one] at h0
  obtain ⟨⟨ha, hb⟩, hc⟩ := h0
  refine ⟨fun i => ?_, fun i => ?_, fun i => ?_⟩
  · exact real_of_cmp _ (Host.reduce_andi_all _ _ _ _ _ ha i)
  · exact real_of_cmp _ (Host.reduce_andi_all _ _ _ _ _ hb i)
  · exact real_of_cmp _ (Host.reduce_andi_all _ _ _ _ _ hc i)

end Cert.Bellman

end
-- ==== Proof.LibAxisLayout.lean ====
/-
  Arrays of three axes re-laid, each operation read at an index given by its coordinates.

  * two leading axes merged or split: an [A,B,m] array viewed as [N,m] with N = A·B has, in row b·B+t and column j,
    the entry (b,t,j); and back;
  * a unit axis added or dropped: [N,m] ↔ [N,1,m] and [A,B] → [A,B,1];
  * a broadcast between arrays of three axes: each coordinate is kept, or is 0 where the operand's axis has extent one;
  * a sum along the last or the middle axis as a finite sum over that coordinate;
  * a concatenation along the last axis of arrays of three axes, and along the rows of matrices, read in a chosen piece.
-/
import Idealize.ShloMosaic.Lib.Pipeline.Value
import Idealize.ShloMosaic.Lib.ValueIdx
import Idealize.ShloMosaic.PureOps.Ideal.Laws

noncomputable section

open scoped BigOperators

namespace Idealize.ShloMosaic.AxisLayout

open Idealize.ShloMosaic Idealize.ShloMosaic.ValueIdx

variable {α : Type}

/-! ## Two leading axes merged or split -/

/-- An [A,B,m] array viewed as [N,m]: row `b·B+t`, column `j` is the entry (b,t,j). -/
theorem cast_merge_apply {A B N m : ℕ} (x : (⟨3, ![A, B, m]⟩ : Shape).Idx → α)
    (h : (⟨3, ![A, B, m]⟩ : Shape).ShapeCasts ⟨2, ![N, m]⟩) (b : Fin A) (t : Fin B) (j : Fin m) (r : Fin N)
    (hr : r.val = b.val * B + t.val) :
    shapeCast ⟨2, ![N, m]⟩ x h (ix2 r j) = x (ix3 b t j) :=
  shapeCast_apply x h _ _ (by
    rw [Shape.rowMajor_val_three, Shape.rowMajor_val_two]
    show (b.val * B + t.val) * m + j.val = r.val * m + j.val
    rw [hr])

/-- An [N,m] array viewed as [A,B,m]: the entry (b,t,j) is row `b·B+t`, column `j`. -/
theorem cast_split_apply {A B N m : ℕ} (x : (⟨2, ![N, m]⟩ : Shape).Idx → α)
    (h : (⟨2, ![N, m]⟩ : Shape).ShapeCasts ⟨3, ![A, B, m]⟩) (b : Fin A) (t : Fin B) (j : Fin m) (r : Fin N)
    (hr : r.val = b.val * B + t.val) :
    shapeCast ⟨3, ![A, B, m]⟩ x h (ix3 b t j) = x (ix2 r j) :=
  shapeCast_apply x h _ _ (by
    rw [Shape.rowMajor_val_three, Shape.rowMajor_val_two]
    show r.val * m + j.val = (b.val * B + t.val) * m + j.val
    rw [hr])

/-! ## A unit axis added or dropped -/

/-- An [N,m] array viewed as [N,1,m]. -/
theorem cast_addMid_apply {N m : ℕ} (x : (⟨2, ![N, m]⟩ : Shape).Idx → α)
    (h : (⟨2, ![N, m]⟩ : Shape).ShapeCasts ⟨3, ![N, 1, m]⟩) (r : Fin N) (z : Fin 1) (j : Fin m) :
    shapeCast ⟨3, ![N, 1, m]⟩ x h (ix3 r z j) = x (ix2 r j) :=
  shapeCast_apply x h _ _ (by
    rw [Shape.rowMajor_val_three, Shape.rowMajor_val_two]
    show r.val * m + j.val = (r.val * 1 + z.val) * m + j.val
    have hz : z.val = 0 := by omega
    rw [hz, Nat.mul_one, Nat.add_zero])

/-- An [N,1,m] array viewed as [N,m]. -/
theorem cast_dropMid_apply {N m : ℕ} (x : (⟨3, ![N, 1, m]⟩ : Shape).Idx → α)
    (h : (⟨3, ![N, 1, m]⟩ : Shape).ShapeCasts ⟨2, ![N, m]⟩) (r : Fin N) (z : Fin 1) (j : Fin m) :
    shapeCast ⟨2, ![N, m]⟩ x h (ix2 r j) = x (ix3 r z j) :=
  shapeCast_apply x h _ _ (by
    rw [Shape.rowMajor_val_three, Shape.rowMajor_val_two]
    show (r.val * 1 + z.val) * m + j.val = r.val * m + j.val
    have hz : z.val = 0 := by omega
    rw [hz, Nat.mul_one, Nat.add_zero])

/-- An [A,B] array viewed as [A,B,1]. -/
theorem cast_addLast_apply {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) :=
  shapeCast_apply x h _ _ (by
    rw [Shape.rowMajor_val_three, Shape.rowMajor_val_two]
    show a.val * B + b.val = (a.val * B + b.val) * 1 + z.val
    have hz : z.val = 0 := by omega
    rw [hz, Nat.mul_one, Nat.add_zero])

/-! ## A broadcast between arrays of three axes -/

/-- A broadcast of an [a0,a1,a2] array to [b0,b1,b2], read at (j0,j1,j2): the operand at the coordinates that are
    `j`'s where the operand's axis is not of extent one, and 0 where it is. -/
theorem bcast3_apply {a0 a1 a2 b0 b1 b2 : ℕ} (x : (⟨3, ![a0, a1, a2]⟩ : Shape).Idx → α)
    (h : (⟨3, ![a0, a1, a2]⟩ : Shape).Broadcasts ⟨3, ![b0, b1, b2]⟩)
    (j0 : Fin b0) (j1 : Fin b1) (j2 : Fin b2) (k0 : Fin a0) (k1 : Fin a1) (k2 : Fin a2)
    (h0 : k0.val = if a0 = 1 then 0 else j0.val) (h1 : k1.val = if a1 = 1 then 0 else j1.val)
    (h2 : k2.val = if a2 = 1 then 0 else j2.val) :
    broadcastTo ⟨3, ![b0, b1, b2]⟩ x h (ix3 j0 j1 j2) = x (ix3 k0 k1 k2) :=
  broadcastTo_apply x h _ _ (fun a => by
    match a with
    | ⟨0, _⟩ => exact h0
    | ⟨1, _⟩ => exact h1
    | ⟨2, _⟩ => exact h2)

/-! ## A sum along one axis -/

/-- The reduced index (a,b) with the last coordinate `k` put back is (a,b,k). -/
theorem lift_last {A B m : ℕ} (h : (⟨3, ![A, B, m]⟩ : Shape).Reduces [2] (⟨2, ![A, B]⟩ : Shape)) (a : Fin A) (b : Fin B)
    (k : Fin ((⟨3, ![A, B, m]⟩ : Shape).size 2)) : h.lift (ix2 a b) k = ix3 a b (⟨k.val, k.isLt⟩ : Fin m) := by
  funext c; apply Fin.ext
  fin_cases c <;> rfl

/-- The reduced index (a,e) with the middle coordinate `k` put back is (a,k,e). -/
theorem lift_mid {A B m : ℕ} (h : (⟨3, ![A, B, m]⟩ : Shape).Reduces [1] (⟨2, ![A, m]⟩ : Shape)) (a : Fin A) (e : Fin m)
    (k : Fin ((⟨3, ![A, B, m]⟩ : Shape).size 1)) : h.lift (ix2 a e) k = ix3 a (⟨k.val, k.isLt⟩ : Fin B) e := by
  funext c; apply Fin.ext
  fin_cases c <;> rfl

/-- A sum along the last axis of an [A,B,m] array, at (a,b): the sum over `k` of the entries (a,b,k). -/
theorem sum_last_apply {A B m : ℕ} {φ : FTy} (x : FVec Ideal (⟨3, ![A, B, m]⟩ : Shape) φ) (acc : BitVec φ.bits)
    (h : (⟨3, ![A, B, m]⟩ : Shape).Reduces [2] (⟨2, ![A, B]⟩ : Shape)) (hφ : FKind.Formats φ) (hacc : acc = FKind.add.neutral φ hφ)
    (a : Fin A) (b : Fin B) :
    multiReduction .add [2] (⟨2, ![A, B]⟩ : Shape) x acc h hφ hacc (ix2 a b) = ∑ k : Fin m, (x (ix3 a b k) : EReal) :=
  (Ideal.multiReduction_add_single x acc h hφ hacc (ix2 a b)).trans
    (Finset.sum_congr rfl fun k _ => congrArg x (lift_last h a b k))

/-- A sum along the middle axis of an [A,B,m] array, at (a,e): the sum over `k` of the entries (a,k,e). -/
theorem sum_mid_apply {A B m : ℕ} {φ : FTy} (x : FVec Ideal (⟨3, ![A, B, m]⟩ : Shape) φ) (acc : BitVec φ.bits)
    (h : (⟨3, ![A, B, m]⟩ : Shape).Reduces [1] (⟨2, ![A, m]⟩ : Shape)) (hφ : FKind.Formats φ) (hacc : acc = FKind.add.neutral φ hφ)
    (a : Fin A) (e : Fin m) :
    multiReduction .add [1] (⟨2, ![A, m]⟩ : Shape) x acc h hφ hacc (ix2 a e) = ∑ k : Fin B, (x (ix3 a k e) : EReal) :=
  (Ideal.multiReduction_add_single x acc h hφ hacc (ix2 a e)).trans
    (Finset.sum_congr rfl fun k _ => congrArg x (lift_mid h a e k))

/-- The sum along the last axis as a kernel prints it for f32: the accumulator the literal zero pattern, its side
    condition the plain equation of two literals. -/
theorem sum_last_zero {A B m : ℕ} (x : FVec Ideal (⟨3, ![A, B, m]⟩ : Shape) .f32)
    (h : (⟨3, ![A, B, m]⟩ : Shape).Reduces [2] (⟨2, ![A, B]⟩ : Shape)) (hφ : FKind.Formats .f32)
    (hacc : (0x00000000#32 : BitVec 32) = 0x00000000#32) (a : Fin A) (b : Fin B) :
    multiReduction .add [2] (⟨2, ![A, B]⟩ : Shape) x 0x00000000#32 h hφ hacc (ix2 a b) = ∑ k : Fin m, (x (ix3 a b k) : EReal) :=
  sum_last_apply x 0x00000000#32 h hφ hacc a b

/-- The sum along the middle axis as a kernel prints it for f32. -/
theorem sum_mid_zero {A B m : ℕ} (x : FVec Ideal (⟨3, ![A, B, m]⟩ : Shape) .f32)
    (h : (⟨3, ![A, B, m]⟩ : Shape).Reduces [1] (⟨2, ![A, m]⟩ : Shape)) (hφ : FKind.Formats .f32)
    (hacc : (0x00000000#32 : BitVec 32) = 0x00000000#32) (a : Fin A) (e : Fin m) :
    multiReduction .add [1] (⟨2, ![A, m]⟩ : Shape) x 0x00000000#32 h hφ hacc (ix2 a e) = ∑ k : Fin B, (x (ix3 a k e) : EReal) :=
  sum_mid_apply x 0x00000000#32 h hφ hacc a e

/-! ## A concatenation read in a chosen piece -/

/-- A concatenation of arrays of three axes along the LAST axis, read at (a,b,r) with `r` in piece `k`: that piece
    at (a,b,j), where `j` is `r` less the extents `pre` of the pieces before it. -/
theorem concat_last_piece {A B M : ℕ} (xs : List ((s : Shape) × (s.Idx → α)))
    (h : Shape.Concatenates (xs.map (·.1)) (⟨3, ![A, B, M]⟩ : Shape) 2)
    (k : ℕ) (hk : k < xs.length) {m₁ : ℕ} (x₁ : (⟨3, ![A, B, m₁]⟩ : Shape).Idx → α)
    (hxk : xs[k] = ⟨(⟨3, ![A, B, m₁]⟩ : Shape), x₁⟩) (pre : ℕ)
    (hpre : (((xs.take k).map (·.1)).map fun s : Shape =>
      if h : s.rank = (⟨3, ![A, B, M]⟩ : Shape).rank then s.size ((2 : Fin (⟨3, ![A, B, M]⟩ : Shape).rank).cast h.symm) else 0).sum = pre)
    (a : Fin A) (b : Fin B) (j : Fin m₁) (r : Fin M) (hr : pre + j.val = r.val) :
    concatenate (⟨3, ![A, B, M]⟩ : Shape) 2 xs h (ix3 a b r) = x₁ (ix3 a b j) :=
  concatenate_apply_piece 2 xs h (ix3 a b r) k hk _ x₁ hxk rfl pre hpre (ix3 a b j)
    (fun c hc => by
      match c with
      | ⟨0, _⟩ => rfl
      | ⟨1, _⟩ => rfl
      | ⟨2, _⟩ => exact absurd rfl hc)
    hr

/-- A concatenation of matrices along the ROWS, read at (r,c) with `r` in piece `k`: that piece at (j,c). -/
theorem concat_rows_piece {M N : ℕ} (xs : List ((s : Shape) × (s.Idx → α)))
    (h : Shape.Concatenates (xs.map (·.1)) (⟨2, ![M, N]⟩ : Shape) 0)
    (k : ℕ) (hk : k < xs.length) {m₁ : ℕ} (x₁ : (⟨2, ![m₁, N]⟩ : Shape).Idx → α)
    (hxk : xs[k] = ⟨(⟨2, ![m₁, N]⟩ : Shape), x₁⟩) (pre : ℕ)
    (hpre : (((xs.take k).map (·.1)).map fun s : Shape =>
      if h : s.rank = (⟨2, ![M, N]⟩ : Shape).rank then s.size ((0 : Fin (⟨2, ![M, N]⟩ : Shape).rank).cast h.symm) else 0).sum = pre)
    (j : Fin m₁) (c : Fin N) (r : Fin M) (hr : pre + j.val = r.val) :
    concatenate (⟨2, ![M, N]⟩ : Shape) 0 xs h (ix2 r c) = x₁ (ix2 j c) :=
  concatenate_apply_piece 0 xs h (ix2 r c) k hk _ x₁ hxk rfl pre hpre (ix2 j c)
    (fun d hd => by
      match d with
      | ⟨0, _⟩ => exact absurd rfl hd
      | ⟨1, _⟩ => rfl)
    hr

end Idealize.ShloMosaic.AxisLayout

end
-- ==== Proof.HatSpec.lean ====
/-
  The categorical projection of a shifted distribution onto a fixed support, entry by entry.

  An atom value `a` shifted by a reward `r` and clamped into the support lands at the fractional
  position `pos r a = (min hi (max lo (r + a)) - lo) / δ` among the atoms.  The mass it carries is
  split between the two neighbouring atoms by linear interpolation; equivalently every atom `t`
  receives the share `hat (pos r a) t = max (1 - |pos r a - t|) 0` of it.  The projected row is
  the sum over the source atoms of the mass times that share.
-/
import Idealize.ShloMosaic.PureOps.Ideal
import Idealize.ShloMosaic.Lib.ValueIdx

noncomputable section

open scoped BigOperators

namespace Cert.Bellman

open Idealize.ShloMosaic Idealize.ShloMosaic.ValueIdx

/-- The lower end of the support, the upper end, the spacing of the atoms, one and zero, as the
    binary32 words both programs spell them with. -/
abbrev cLo : EReal := Ideal.ofBits .f32 0xC1200000#32
abbrev cHi : EReal := Ideal.ofBits .f32 0x41200000#32
abbrev cDelta : EReal := Ideal.ofBits .f32 0x3ECCCCCD#32
abbrev cOne : EReal := Ideal.ofBits .f32 0x3F800000#32
abbrev cZero : EReal := Ideal.ofBits .f32 0x00000000#32

/-- The fractional position of the shifted, clamped atom among the atoms. -/
def pos (r a : EReal) : EReal := Ideal.div (min cHi (max cLo (r + a)) - cLo) cDelta

/-- The share of a mass at position `x` that atom `t` receives: `max (1 - |x - t|) 0`. -/
def hat (x t : EReal) : EReal := max (cOne - max (x - t) (-(x - t))) cZero

/-- Atom number `q` as a float: the signed reading of its 32-bit word. -/
def atomNo (q : ℕ) : EReal := (((BitVec.ofNat 32 q).toInt : ℝ) : EReal)

/-- One source atom's contribution to target atom `q` of a row: its mass times its share. -/
def contrib (rw : EReal) (mass : ℕ → EReal) (atom : ℕ → EReal) (q s : ℕ) : EReal :=
  mass s * hat (pos rw (atom s)) (atomNo q)

/-- A sum over the 51 source atoms taken eight at a time (six groups of eight, then three), each
    group added to the running total that starts at zero: the same sum. -/
theorem sum_by_eights (g : ℕ → EReal) :
    (((((((0 + ∑ j : Fin 8, g (0 + j.val)) + ∑ j : Fin 8, g (8 + j.val)) + ∑ j : Fin 8, g (16 + j.val))
      + ∑ j : Fin 8, g (24 + j.val)) + ∑ j : Fin 8, g (32 + j.val)) + ∑ j : Fin 8, g (40 + j.val))
      + ∑ j : Fin 3, g (48 + j.val)) = ∑ s : Fin 51, g s.val := by
  simp only [Fin.sum_univ_eight, Fin.sum_univ_three]
  rw [Fin.sum_univ_eq_sum_range (fun s => g s) 51]
  simp only [Finset.sum_range_succ, Finset.sum_range_zero]
  simp only [zero_add, add_assoc]
  rfl

end Cert.Bellman

end
-- ==== Proof.KernelGroup.lean ====
/-
  One group of source atoms in the projection's accumulation, read at an entry.

  The accumulation takes the source atoms `o, o+1, …, o+c-1` of every row together: it forms the
  `[R, c, A]` array of masses times shares — the mass of source atom `o+j` of row `p` times the
  share target atom `q` receives from it — and sums it along the middle axis.  Read at `(p, q)`
  that sum is the sum over `j` of the contributions of the source atoms `o+j` to target atom `q`.
-/
import Idealize.ShloMosaic.Lib.Pipeline.Value
import Idealize.ShloMosaic.Lib.ValueIdx
import Idealize.ShloMosaic.Lib.ValueLayout
import Idealize.ShloMosaic.PureOps.Ideal.Laws
import proofs.«172951_j42563125903609_2_alg».proof.Proof.LibAxisLayout
import proofs.«172951_j42563125903609_2_alg».proof.Proof.HatSpec

noncomputable section

open scoped BigOperators

namespace Cert.Bellman

open Idealize.ShloMosaic Idealize.ShloMosaic.ValueIdx Idealize.ShloMosaic.AxisLayout

variable {R c A : ℕ}

/-- The absolute value of a float array at an index: the larger of the entry and its negative. -/
theorem absf_at {s : Shape} (v : FVec Ideal s .f32) (i : s.Idx) : absf v i = max (v i) (-(v i)) := rfl

/-- An `[R, c]` array given a trailing unit axis and repeated along a new last axis of extent `A`,
    at `(p, j, q)`: its entry `(p, j)`. -/
theorem col_spread (X : (⟨2, ![R, c]⟩ : Shape).Idx → EReal)
    (hc1 : (⟨2, ![R, c]⟩ : Shape).ShapeCasts ⟨3, ![R, c, 1]⟩)
    (hb1 : (⟨3, ![R, c, 1]⟩ : Shape).Broadcasts ⟨3, ![R, c, A]⟩) (p : Fin R) (j : Fin c) (q : Fin A) :
    broadcastTo ⟨3, ![R, c, A]⟩ (shapeCast ⟨3, ![R, c, 1]⟩ X hc1) hb1 (ix3 p j q) = X (ix2 p j) := by
  rw [bcast3_apply _ hb1 p j q p j (0 : Fin 1) (by split <;> omega) (by split <;> omega) (by simp)]
  exact cast_addLast_apply X hc1 p j 0

/-- The `[1, 1, A]` row of atom numbers repeated over rows and source atoms, at `(p, j, q)`: entry `q`. -/
theorem row_spread (T : (⟨3, ![1, 1, A]⟩ : Shape).Idx → EReal)
    (hbT : (⟨3, ![1, 1, A]⟩ : Shape).Broadcasts ⟨3, ![R, c, A]⟩) (p : Fin R) (j : Fin c) (q : Fin A) :
    broadcastTo ⟨3, ![R, c, A]⟩ T hbT (ix3 p j q) = T (ix3 (0 : Fin 1) (0 : Fin 1) q) :=
  bcast3_apply T hbT p j q 0 0 q (by simp) (by simp) (by split <;> omega)

/-- The `[R, 1]` column of rewards repeated along `c` columns, at `(p, j)`: row `p`'s reward. -/
theorem reward_spread (P1 : (⟨2, ![R, 1]⟩ : Shape).Idx → EReal)
    (hP1 : (⟨2, ![R, 1]⟩ : Shape).ShapeCasts ⟨2, ![R, 1]⟩)
    (hbP1 : (⟨2, ![R, 1]⟩ : Shape).Broadcasts ⟨2, ![R, c]⟩) (p : Fin R) (j : Fin c) :
    broadcastTo ⟨2, ![R, c]⟩ (shapeCast ⟨2, ![R, 1]⟩ P1 hP1) hbP1 (ix2 p j) = P1 (ix2 p (0 : Fin 1)) := by
  rw [shapeCast_self]
  refine broadcastTo_apply P1 hbP1 (ix2 p j) (ix2 p (0 : Fin 1)) fun ax => ?_
  match ax with
  | ⟨0, _⟩ =>
    show p.val = if R = 1 then 0 else p.val
    split
    · have := p.isLt; omega
    · rfl
  | ⟨1, _⟩ => rfl

/-- Columns `o … o+c-1` of the `[1, A]` row of atom values repeated down `R` rows, at `(p, j)`: atom
    value `o+j`. -/
theorem atoms_spread (o : ℕ) (P2 : (⟨2, ![1, A]⟩ : Shape).Idx → EReal)
    (hP2 : (⟨2, ![1, A]⟩ : Shape).ShapeCasts ⟨2, ![1, A]⟩)
    (hsl2 : (⟨2, ![1, A]⟩ : Shape).Slices ![0, o] ⟨2, ![1, c]⟩)
    (hb2 : (⟨2, ![1, c]⟩ : Shape).Broadcasts ⟨2, ![R, c]⟩) (p : Fin R) (j : Fin c) (k : Fin A)
    (hk : k.val = o + j.val) :
    broadcastTo ⟨2, ![R, c]⟩ (extractStridedSlice ⟨2, ![1, c]⟩ ![0, o] (shapeCast ⟨2, ![1, A]⟩ P2 hP2) hsl2) hb2 (ix2 p j)
      = P2 (ix2 (0 : Fin 1) k) := by
  rw [broadcastTo_1b_ab_apply, slice2_axis1_apply o _ hsl2 (0 : Fin 1) j k hk, shapeCast_self]

/-- ONE GROUP OF SOURCE ATOMS, summed: at `(p, q)` the sum over `j` of the mass of source atom `o+j`
    of row `p` times the share target atom `q` receives from it.  (`C` stands for the array of the
    support's upper end, which the program builds once and uses in several groups.) -/
theorem group_sum (o : ℕ) (ho : o + c ≤ A)
    (P0 : FVec Ideal ⟨2, ![R, A]⟩ .f32) (P1 : FVec Ideal ⟨2, ![R, 1]⟩ .f32) (P2 : FVec Ideal ⟨2, ![1, A]⟩ .f32)
    (T : FVec Ideal ⟨3, ![1, 1, A]⟩ .f32) (C : FVec Ideal ⟨2, ![R, c]⟩ .f32) (hC : ∀ i, C i = cHi)
    (hsl0 : (⟨2, ![R, A]⟩ : Shape).Slices ![0, o] ⟨2, ![R, c]⟩)
    (hc1 : (⟨2, ![R, c]⟩ : Shape).ShapeCasts ⟨3, ![R, c, 1]⟩)
    (hb1 : (⟨3, ![R, c, 1]⟩ : Shape).Broadcasts ⟨3, ![R, c, A]⟩)
    (hP1 : (⟨2, ![R, 1]⟩ : Shape).ShapeCasts ⟨2, ![R, 1]⟩)
    (hbP1 : (⟨2, ![R, 1]⟩ : Shape).Broadcasts ⟨2, ![R, c]⟩)
    (hP2 : (⟨2, ![1, A]⟩ : Shape).ShapeCasts ⟨2, ![1, A]⟩)
    (hsl2 : (⟨2, ![1, A]⟩ : Shape).Slices ![0, o] ⟨2, ![1, c]⟩)
    (hb2 : (⟨2, ![1, c]⟩ : Shape).Broadcasts ⟨2, ![R, c]⟩)
    (hbT : (⟨3, ![1, 1, A]⟩ : Shape).Broadcasts ⟨3, ![R, c, A]⟩)
    (hred : (⟨3, ![R, c, A]⟩ : Shape).Reduces [1] ⟨2, ![R, A]⟩)
    (hφ : FKind.Formats .f32) (hacc : (0x00000000#32 : BitVec 32) = 0x00000000#32)
    (p : Fin R) (q : Fin A) :
    multiReduction .add [1] (⟨2, ![R, A]⟩ : Shape)
      (mulf (broadcastTo ⟨3, ![R, c, A]⟩ (shapeCast ⟨3, ![R, c, 1]⟩ (extractStridedSlice ⟨2, ![R, c]⟩ ![0, o] P0 hsl0) hc1) hb1)
        (maximumf (subf (broadcast ⟨3, ![R, c, A]⟩ (Scalar.ofBits .f32 0x3F800000#32))
          (absf (subf (broadcastTo ⟨3, ![R, c, A]⟩ (shapeCast ⟨3, ![R, c, 1]⟩
            (divf (subf (minimumf C (maximumf (broadcast ⟨2, ![R, c]⟩ (Scalar.ofBits .f32 0xC1200000#32))
              (addf (broadcastTo ⟨2, ![R, c]⟩ (shapeCast ⟨2, ![R, 1]⟩ P1 hP1) hbP1)
                (broadcastTo ⟨2, ![R, c]⟩ (extractStridedSlice ⟨2, ![1, c]⟩ ![0, o] (shapeCast ⟨2, ![1, A]⟩ P2 hP2) hsl2) hb2))))
              (broadcast ⟨2, ![R, c]⟩ (Scalar.ofBits .f32 0xC1200000#32)))
              (broadcast ⟨2, ![R, c]⟩ (Scalar.ofBits .f32 0x3ECCCCCD#32))) hc1) hb1)
            (broadcastTo ⟨3, ![R, c, A]⟩ T hbT))))
          (broadcast ⟨3, ![R, c, A]⟩ (Scalar.ofBits .f32 0x00000000#32))))
      0x00000000#32 hred hφ hacc (ix2 p q)
    = ∑ j : Fin c, P0 (ix2 p (⟨o + j.val, by have := j.isLt; omega⟩ : Fin A))
        * hat (pos (P1 (ix2 p (0 : Fin 1))) (P2 (ix2 (0 : Fin 1) (⟨o + j.val, by have := j.isLt; omega⟩ : Fin A))))
            (T (ix3 (0 : Fin 1) (0 : Fin 1) q)) := by
  rw [sum_mid_zero]
  refine Finset.sum_congr rfl fun j _ => ?_
  rw [mulf_apply, col_spread, slice2_axis1_apply o P0 hsl0 p j ⟨o + j.val, by have := j.isLt; omega⟩ rfl]
  congr 1
  rw [maximumf_apply, subf_apply, absf_at, subf_apply, col_spread, row_spread, divf_apply, subf_apply,
    minimumf_apply, maximumf_apply, addf_apply, reward_spread,
    atoms_spread o P2 hP2 hsl2 hb2 p j ⟨o + j.val, by have := j.isLt; omega⟩ rfl, hC]
  rfl

end Cert.Bellman

end
-- ==== Proof.KernelValue.lean ====
/-
  The kernel's value: after its run the result array holds the projection of the argument arrays.

  Each grid point handles a thousand rows.  Its body reads the rows' rewards (a column), their masses and the
  row of atom values, and leaves in the output block, at (p, q), the sum over the 51 source atoms of the mass
  times the share atom q receives — accumulated in seven groups of source atoms.  Point t's blocks are rows
  1000·t … 1000·t + 999 of the arrays, so what it writes back is block t of one whole-array function, and the
  thousand blocks tile the result.
-/
import proofs.«172951_j42563125903609_2_alg».proof.Proof.Gen.KernelIdeal.Value
import proofs.«172951_j42563125903609_2_alg».proof.Proof.KernelGroup

noncomputable section

open scoped BigOperators

namespace Cert.Bellman

open Cert.KernelIdeal Cert.KernelIdeal.Gen Idealize.ShloMosaic Idealize.ShloMosaic.TcCoe Idealize.SL.Sem
open Idealize.ShloMosaic.ValueIdx
open Idealize.ShloMosaic.Pipeline (Dat)

/-- The row of atom numbers the body builds, at entry `q`: atom number `q` as a float. -/
theorem atom_row (q : Fin 51) : (k0_pay4 (F := Ideal)) (ix3 (0 : Fin 1) (0 : Fin 1) q) = atomNo q.val := by
  unfold k0_pay4
  show FloatOps.sitofp .f32 (iota .tc S1x1x51 32 [2] iota_S1x1x51_d2_w32 (ix3 (0 : Fin 1) (0 : Fin 1) q)) = _
  rw [iota_single_apply]
  rfl

/-- A block index rebuilt from its own coordinates is itself. -/
theorem coords_id (y : S1000x51.Idx) :
    Value.ix3_0 y = y ∧ Value.ix3_1 y = y ∧ Value.ix3_2 y = y ∧ Value.ix3_3 y = y ∧ Value.ix3_4 y = y
      ∧ Value.ix3_5 y = y ∧ Value.ix3_6 y = y := by
  refine ⟨?_, ?_, ?_, ?_, ?_, ?_, ?_⟩ <;> (funext a; match a with | ⟨0, _⟩ => rfl | ⟨1, _⟩ => rfl)

/-- WHAT THE BODY LEAVES IN A BLOCK, entry `(p, q)`: the sum over the 51 source atoms `s` of the mass
    `P0 (p, s)` times the share target atom `q` receives from the position of atom value `P2 (0, s)`
    shifted by the row's reward `P1 (p, 0)`.  The body adds the source atoms in seven groups (six of
    eight, one of three) to a total that starts at zero. -/
theorem block_entry (P0 : Vec Ideal S1000x51 .f32) (P1 : Vec Ideal S1000x1 .f32) (P2 : Vec Ideal S1x51 .f32)
    (p : Fin 1000) (q : Fin 51) :
    Value.E3 (F := Ideal) P0 P1 P2 (ix2 p q)
      = ∑ s : Fin 51, P0 (ix2 p s) * hat (pos (P1 (ix2 p (0 : Fin 1))) (P2 (ix2 (0 : Fin 1) s))) (atomNo q.val) := by
  obtain ⟨i0, i1, i2, i3, i4, i5, i6⟩ := coords_id (ix2 p q)
  unfold Value.E3
  rw [i0, i1, i2, i3, i4, i5, i6]
  rw [(group_sum 0 (by omega) P0 P1 P2 (k0_pay4 (F := Ideal)) (broadcast S1000x8 (Scalar.ofBits .f32 0x41200000#32)) (fun _ => rfl) slices_S1000x51_o0_0_S1000x8 shapeCasts_S1000x8_S1000x8x1 broadcasts_S1000x8x1_S1000x8x51 shapeCasts_S1000x1_S1000x1 broadcasts_S1000x1_S1000x8 shapeCasts_S1x51_S1x51 slices_S1x51_o0_0_S1x8 broadcasts_S1x8_S1000x8 broadcasts_S1x1x51_S1000x8x51 reduces_S1000x8x51_S1000x51 (.inl rfl) rfl p q),
    (group_sum 8 (by omega) P0 P1 P2 (k0_pay4 (F := Ideal)) (k0_pay8 (F := Ideal)) (fun _ => rfl) slices_S1000x51_o0_8_S1000x8 shapeCasts_S1000x8_S1000x8x1 broadcasts_S1000x8x1_S1000x8x51 shapeCasts_S1000x1_S1000x1 broadcasts_S1000x1_S1000x8 shapeCasts_S1x51_S1x51 slices_S1x51_o0_8_S1x8 broadcasts_S1x8_S1000x8 broadcasts_S1x1x51_S1000x8x51 reduces_S1000x8x51_S1000x51 (.inl rfl) rfl p q),
    (group_sum 16 (by omega) P0 P1 P2 (k0_pay4 (F := Ideal)) (broadcast S1000x8 (Scalar.ofBits .f32 0x41200000#32)) (fun _ => rfl) slices_S1000x51_o0_16_S1000x8 shapeCasts_S1000x8_S1000x8x1 broadcasts_S1000x8x1_S1000x8x51 shapeCasts_S1000x1_S1000x1 broadcasts_S1000x1_S1000x8 shapeCasts_S1x51_S1x51 slices_S1x51_o0_16_S1x8 broadcasts_S1x8_S1000x8 broadcasts_S1x1x51_S1000x8x51 reduces_S1000x8x51_S1000x51 (.inl rfl) rfl p q),
    (group_sum 24 (by omega) P0 P1 P2 (k0_pay4 (F := Ideal)) (broadcast S1000x8 (Scalar.ofBits .f32 0x41200000#32)) (fun _ => rfl) slices_S1000x51_o0_24_S1000x8 shapeCasts_S1000x8_S1000x8x1 broadcasts_S1000x8x1_S1000x8x51 shapeCasts_S1000x1_S1000x1 broadcasts_S1000x1_S1000x8 shapeCasts_S1x51_S1x51 slices_S1x51_o0_24_S1x8 broadcasts_S1x8_S1000x8 broadcasts_S1x1x51_S1000x8x51 reduces_S1000x8x51_S1000x51 (.inl rfl) rfl p q),
    (group_sum 32 (by omega) P0 P1 P2 (k0_pay4 (F := Ideal)) (broadcast S1000x8 (Scalar.ofBits .f32 0x41200000#32)) (fun _ => rfl) slices_S1000x51_o0_32_S1000x8 shapeCasts_S1000x8_S1000x8x1 broadcasts_S1000x8x1_S1000x8x51 shapeCasts_S1000x1_S1000x1 broadcasts_S1000x1_S1000x8 shapeCasts_S1x51_S1x51 slices_S1x51_o0_32_S1x8 broadcasts_S1x8_S1000x8 broadcasts_S1x1x51_S1000x8x51 reduces_S1000x8x51_S1000x51 (.inl rfl) rfl p q),
    (group_sum 40 (by omega) P0 P1 P2 (k0_pay4 (F := Ideal)) (broadcast S1000x8 (Scalar.ofBits .f32 0x41200000#32)) (fun _ => rfl) slices_S1000x51_o0_40_S1000x8 shapeCasts_S1000x8_S1000x8x1 broadcasts_S1000x8x1_S1000x8x51 shapeCasts_S1000x1_S1000x1 broadcasts_S1000x1_S1000x8 shapeCasts_S1x51_S1x51 slices_S1x51_o0_40_S1x8 broadcasts_S1x8_S1000x8 broadcasts_S1x1x51_S1000x8x51 reduces_S1000x8x51_S1000x51 (.inl rfl) rfl p q),
    (group_sum 48 (by omega) P0 P1 P2 (k0_pay4 (F := Ideal)) (broadcast S1000x3 (Scalar.ofBits .f32 0x41200000#32)) (fun _ => rfl) slices_S1000x51_o0_48_S1000x3 shapeCasts_S1000x3_S1000x3x1 broadcasts_S1000x3x1_S1000x3x51 shapeCasts_S1000x1_S1000x1 broadcasts_S1000x1_S1000x3 shapeCasts_S1x51_S1x51 slices_S1x51_o0_48_S1x3 broadcasts_S1x3_S1000x3 broadcasts_S1x1x51_S1000x3x51 reduces_S1000x3x51_S1000x51 (.inl rfl) rfl p q)]
  rw [atom_row]
  let g : ℕ → EReal := fun s => if h : s < 51 then
    P0 (ix2 p (⟨s, h⟩ : Fin 51)) * hat (pos (P1 (ix2 p (0 : Fin 1))) (P2 (ix2 (0 : Fin 1) (⟨s, h⟩ : Fin 51)))) (atomNo q.val) else 0
  have h8 : ∀ (o : ℕ) (ho : o + 8 ≤ 51), (∑ j : Fin 8, P0 (ix2 p (⟨o + j.val, by have := j.isLt; omega⟩ : Fin 51))
      * hat (pos (P1 (ix2 p (0 : Fin 1))) (P2 (ix2 (0 : Fin 1) (⟨o + j.val, by have := j.isLt; omega⟩ : Fin 51)))) (atomNo q.val))
      = ∑ j : Fin 8, g (o + j.val) := fun o ho =>
    Finset.sum_congr rfl fun j _ => by
      have hj : o + j.val < 51 := by have := j.isLt; omega
      show _ = dite (o + j.val < 51) _ _
      rw [dif_pos hj]
  have h3 : (∑ j : Fin 3, P0 (ix2 p (⟨48 + j.val, by have := j.isLt; omega⟩ : Fin 51))
      * hat (pos (P1 (ix2 p (0 : Fin 1))) (P2 (ix2 (0 : Fin 1) (⟨48 + j.val, by have := j.isLt; omega⟩ : Fin 51)))) (atomNo q.val))
      = ∑ j : Fin 3, g (48 + j.val) :=
    Finset.sum_congr rfl fun j _ => by
      have hj : 48 + j.val < 51 := by have := j.isLt; omega
      show _ = dite (48 + j.val < 51) _ _
      rw [dif_pos hj]
  have hs : (∑ s : Fin 51, P0 (ix2 p s) * hat (pos (P1 (ix2 p (0 : Fin 1))) (P2 (ix2 (0 : Fin 1) s))) (atomNo q.val))
      = ∑ s : Fin 51, g s.val :=
    Finset.sum_congr rfl fun s _ => by
      show _ = dite (s.val < 51) _ _
      rw [dif_pos s.isLt]
  rw [h8 0 (by omega), h8 8 (by omega), h8 16 (by omega), h8 24 (by omega), h8 32 (by omega), h8 40 (by omega), h3, hs,
    ← sum_by_eights g]
  show _ = _
  simp only [Ideal.addf_def]
  rw [show (Scalar.ofBits (F := Ideal) .f32 0x00000000#32 : EReal) = 0 from Ideal.ofBits_zero_f32]

/-! ## From blocks to the whole array -/

/-- THE PROJECTION as one function of the three argument arrays: entry `(r, t)` is the sum over the
    source atoms `s` of the mass `probs (r, s)` times the share atom `t` receives from atom value
    `atoms s` shifted by `reward r`. -/
def projAt (reward : (⟨1, ![1000000]⟩ : Shape).Idx → EReal) (probs : (⟨2, ![1000000, 51]⟩ : Shape).Idx → EReal)
    (atoms : (⟨1, ![51]⟩ : Shape).Idx → EReal) (r : Fin 1000000) (t : Fin 51) : EReal :=
  ∑ s : Fin 51, probs (ix2 r s) * hat (pos (reward (ix1 r)) (atoms (ix1 s))) (atomNo t.val)

def projected (reward : (⟨1, ![1000000]⟩ : Shape).Idx → EReal) (probs : (⟨2, ![1000000, 51]⟩ : Shape).Idx → EReal)
    (atoms : (⟨1, ![51]⟩ : Shape).Idx → EReal) : (⟨2, ![1000000, 51]⟩ : Shape).Idx → EReal :=
  fun i => projAt reward probs atoms (i 0) (i 1)

theorem hz : (![0, 0] : Fin 2 → Nat) = fun _ => 0 := funext fun a => by fin_cases a <;> rfl

/-- The body's result for the output block is the block function of the three input blocks. -/
theorem body_out (x0 : Vec Ideal S1000x1 .f32) (x1 : Vec Ideal S1000x51 .f32) (x2 : Vec Ideal S1x51 .f32)
    (y : S1000x51.Idx) : out0_3 x0 x1 x2 y = Value.E3 (F := Ideal) x1 x0 x2 y := by
  unfold out0_3
  simp only [View.ld_unit_zero (S := S1000x1) hz, View.ld_unit_zero (S := S1x51) hz, View.ld_unit_zero (S := S1000x51) hz]
  exact Value.canon3_eq x1 x0 x2 y

variable (m : (ℓ : Loc nD τ sig) → Buf (Elt Ideal) ℓ) (ρ : Dev nD → PrngReg)

/-- The reward column the region finds: the reward vector given a trailing unit axis. -/
theorem reward_col (c : Dev nD) : (V m c main_v0 : S1000000x1.Idx → EReal)
    = shapeCast S1000000x1 (m ((c : Thread nD τ).loc main_arg0)) shapeCasts_S1000000_S1000000x1 := by
  dsimp only [Gen.V, Gen.hostOps0]; after_results; rfl

/-- The atom row the region finds: the atom values given a leading unit axis. -/
theorem atom_rowArr (c : Dev nD) : (V m c main_v1 : S1x51.Idx → EReal)
    = shapeCast S1x51 (m ((c : Thread nD τ).loc main_arg2)) shapeCasts_S51_S1x51 := by
  dsimp only [Gen.V, Gen.hostOps0]; after_results; rfl

/-- The printed index maps, decided over the grid: at point `t` the reward, mass and output blocks
    are block `t` of rows, the atom row is the one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the projection of the argument arrays. -/
theorem flushed_eq (c : Dev nD) (t : Fin cfg0.N) :
    (dats m 0 c).flushed 3 t = ((cfg0.win 3).blk t).view.read (Elt Ideal)
      (projected (m ((c : Thread nD τ).loc main_arg0)) (m ((c : Thread nD τ).loc main_arg1)) (m ((c : Thread nD τ).loc main_arg2))) := by
  rw [Value.flushed3]
  obtain ⟨e00, e01, e10, e11, e20, e21, e30, e31⟩ := idx_facts t
  have ht : t.val < 1000 := t.isLt
  funext y
  obtain ⟨p, q, rfl⟩ : ∃ (p : Fin 1000) (q : Fin 51), y = ix2 p q := ⟨y 0, y 1, eq_ix2 y⟩
  show out0_3 (iblk m c 0 t) (iblk m c 1 t) (iblk m c 2 t) (ix2 p q) = _
  refine (body_out _ _ _ (ix2 p q)).trans ?_
  refine (block_entry _ _ _ p q).trans ?_
  have hp : p.val < 1000 := p.isLt
  have hq : q.val < 51 := q.isLt
  have hrow : 1000 * t.val + p.val < 1000000 := by omega
  -- the output entry's place in the array
  have hE : ((cfg0.win 3).blk t).view.emb (ix2 p q) = ix2 (⟨1000 * t.val + p.val, hrow⟩ : Fin 1000000) q := by
    funext a; apply Fin.ext
    match a with
    | ⟨0, _⟩ => show win0_3.index t (0 : Fin 2) * 1000 + 1 * p.val = 1000 * t.val + p.val; omega
    | ⟨1, _⟩ => show win0_3.index t (1 : Fin 2) * 51 + 1 * q.val = q.val; omega
  show _ = projected _ _ _ (((cfg0.win 3).blk t).view.emb (ix2 p q))
  rw [hE]
  show _ = projAt _ _ _ (⟨1000 * t.val + p.val, hrow⟩ : Fin 1000000) q
  unfold projAt
  -- the row's reward
  have h0 : iblk m c 0 t (ix2 p (0 : Fin 1)) = m ((c : Thread nD τ).loc main_arg0) (ix1 (⟨1000 * t.val + p.val, hrow⟩ : Fin 1000000)) := by
    show V m c main_v0 (((cfg0.win 0).blk t).view.emb (ix2 p (0 : Fin 1))) = _
    have hemb : ((cfg0.win 0).blk t).view.emb (ix2 p (0 : Fin 1)) = ix2 (⟨1000 * t.val + p.val, hrow⟩ : Fin 1000000) (0 : Fin 1) := by
      funext a; apply Fin.ext
      match a with
      | ⟨0, _⟩ => show win0_0.index t (0 : Fin 2) * 1000 + 1 * p.val = 1000 * t.val + p.val; omega
      | ⟨1, _⟩ => show win0_0.index t (1 : Fin 2) * 1 + 1 * 0 = 0; omega
    rw [hemb, reward_col]
    exact shapeCast_apply _ _ _ _ (by show (S1000000.rowMajor (ix1 (⟨1000 * t.val + p.val, hrow⟩ : Fin 1000000))).val = (S1000000x1.rowMajor (ix2 (⟨1000 * t.val + p.val, hrow⟩ : Fin 1000000) (0 : Fin 1))).val; rw [Shape.rowMajor_val_one, Shape.rowMajor_val_two]; show 1000 * t.val + p.val = (1000 * t.val + p.val) * 1 + 0; omega)
  -- the atom values
  have h2 : ∀ s : Fin 51, iblk m c 2 t (ix2 (0 : Fin 1) s) = m ((c : Thread nD τ).loc main_arg2) (ix1 s) := by
    intro s
    show V m c main_v1 (((cfg0.win 2).blk t).view.emb (ix2 (0 : Fin 1) s)) = _
    have hemb : ((cfg0.win 2).blk t).view.emb (ix2 (0 : Fin 1) s) = ix2 (0 : Fin 1) s := by
      funext a; apply Fin.ext
      match a with
      | ⟨0, _⟩ => show win0_2.index t (0 : Fin 2) * 1 + 1 * 0 = 0; omega
      | ⟨1, _⟩ => show win0_2.index t (1 : Fin 2) * 51 + 1 * s.val = s.val; omega
    rw [hemb, atom_rowArr]
    exact shapeCast_apply _ _ _ _ (by show (S51.rowMajor (ix1 s)).val = (S1x51.rowMajor (ix2 (0 : Fin 1) s)).val; rw [Shape.rowMajor_val_one, Shape.rowMajor_val_two]; show s.val = 0 * 51 + s.val; omega)
  -- the masses
  have h1 : ∀ s : Fin 51, iblk m c 1 t (ix2 p s) = m ((c : Thread nD τ).loc main_arg1) (ix2 (⟨1000 * t.val + p.val, hrow⟩ : Fin 1000000) s) := by
    intro s
    show V m c main_arg1 (((cfg0.win 1).blk t).view.emb (ix2 p s)) = _
    have hemb : ((cfg0.win 1).blk t).view.emb (ix2 p s) = ix2 (⟨1000 * t.val + p.val, hrow⟩ : Fin 1000000) s := by
      funext a; apply Fin.ext
      match a with
      | ⟨0, _⟩ => show win0_1.index t (0 : Fin 2) * 1000 + 1 * p.val = 1000 * t.val + p.val; omega
      | ⟨1, _⟩ => show win0_1.index t (1 : Fin 2) * 51 + 1 * s.val = s.val; omega
    rw [hemb, V_main_arg1]
  refine Finset.sum_congr rfl fun s _ => ?_
  rw [h0, h1 s, h2 s]

/-- An index of the array is in point `t`'s block iff each coordinate is in the block's range. -/
theorem mem_blk (t : Fin cfg0.N) (i : S1000000x51.Idx) :
    i ∈ ((cfg0.win 3).blk t).view.set ↔ ∀ a : Fin 2, win0_3.index t a * S1000x51.size a ≤ (i a).val ∧ (i a).val < win0_3.index t a * S1000x51.size a + S1000x51.size a := by
  show i ∈ ((View.whole main_v2).slice (win0_3.rect t)).set ↔ _
  rw [View.set_slice_whole, Rect.mem_set_unit]
  exact Iff.rfl

/-- Every entry of the output array is in the block of the point that handles its row's thousand. -/
theorem cover (i : S1000000x51.Idx) : ∃ t : Fin cfg0.N, (cfg0.win 3).flush t = true ∧ i ∈ ((cfg0.win 3).blk t).view.set := by
  have hi0 : (i 0).val < 1000000 := (i 0).isLt
  have hi1 : (i 1).val < 51 := (i 1).isLt
  let t : Fin cfg0.N := ⟨(i 0).val / 1000, by show (i 0).val / 1000 < 1000; omega⟩
  obtain ⟨-, -, -, -, -, -, e30, e31⟩ := idx_facts t
  have htv : t.val = (i 0).val / 1000 := rfl
  refine ⟨t, flush0_3 t, ?_⟩
  rw [mem_blk]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 51 ≤ (i 1).val ∧ (i 1).val < win0_3.index t (1 : Fin 2) * 51 + 51; omega

/-- THE OUTPUT ARRAY after the run is the projection of the argument arrays. -/
theorem final (c : Dev nD) : (dats m 0 c).arrAt 3 cfg0.N
    = projected (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: it terminates with the projection in the result and the arguments unchanged. -/
theorem kernel_run : θ_run defs (onTc (τ := τ) (main (F := Ideal))) ⟨m, fun _ => 0, ρ⟩ fun r => ∀ c : Dev nD,
      r.2.mem ((c : Thread nD τ).loc main_v2)
        = projected (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Bellman

end
-- ==== Proof.RefStages.lean ====
/- The host program's stages read at one entry (r, s): the fractional position, the two
   interpolation weights times the mass, the zero start, and the (row, column) index words
   of the two scattered updates. -/
import proofs.«172951_j42563125903609_2_alg».proof.Proof.Gen.ReferenceIdeal.Read
import proofs.«172951_j42563125903609_2_alg».proof.Proof.HatSpec
import proofs.«172951_j42563125903609_2_alg».proof.Proof.LibAxisLayout
import Idealize.ShloMosaic.Lib.ValueIdx

noncomputable section

namespace Cert.Bellman.Ref

open Cert.ReferenceIdeal Cert.ReferenceIdeal.Gen Cert.ReferenceIdeal.Read Idealize.ShloMosaic
  Idealize.ShloMosaic.ValueIdx Cert.Bellman

variable (x0 : (⟨S1000000, .f32⟩ : BufTy).Contents (Elt Ideal))
  (x1 : (⟨S1000000x51, .f32⟩ : BufTy).Contents (Elt Ideal))
  (x2 : (⟨S51, .f32⟩ : BufTy).Contents (Elt Ideal))
  (r : Fin 1000000) (s : Fin 51)

/-- The two broadcasts of the atom values (51) to (1, 51) to (10^6, 51) read entry (r, s) at atom s. -/
theorem idx_atom : idx_main_v0 (idx_main_v2 (ix2 r s)) = ix1 s := by
  funext a; match a with | ⟨0, _⟩ => rfl

/-- The two broadcasts of the rewards (10^6) to (10^6, 1) to (10^6, 51) read entry (r, s) at row r. -/
theorem idx_reward : idx_main_v1 (idx_main_v3 (ix2 r s)) = ix1 r := by
  funext a; match a with | ⟨0, _⟩ => rfl

/-- The position stage at (r, s): the atom value plus the reward, clamped into [lo, hi], less lo,
    over the spacing.  The program adds atom + reward; the specification writes reward + atom. -/
theorem pos_at : val_main_v9 (F := Ideal) x0 x2 (ix2 r s) = pos (x0 (ix1 r)) (x2 (ix1 s)) := by
  rw [val_main_v9_apply, val_main_v7_apply, val_main_v5_apply, val_main_call0_v2_apply, val_main_v4_apply,
    val_main_v2_apply, val_main_v0_apply, val_main_v3_apply, val_main_v1_apply, idx_atom, idx_reward]
  show Ideal.div (min cHi (max cLo (x2 (ix1 s) + x0 (ix1 r))) - cLo) cDelta = _
  rw [pos, add_comm]

/-- The lower neighbour's weight times the mass at (r, s): where the position is a whole number
    (floor = ceil) the weight is one, otherwise ceil - position. -/
theorem lo_at : val_main_v22 (F := Ideal) x0 x1 x2 (ix2 r s)
    = (Scalar.select (Ideal.cmp .oeq (Ideal.liftRound Int.floor (pos (x0 (ix1 r)) (x2 (ix1 s))))
          (Ideal.liftRound Int.ceil (pos (x0 (ix1 r)) (x2 (ix1 s))))) cOne
        (Ideal.liftRound Int.ceil (pos (x0 (ix1 r)) (x2 (ix1 s))) - pos (x0 (ix1 r)) (x2 (ix1 s))))
      * x1 (ix2 r s) := by
  rw [val_main_v22_apply, val_main_v14_apply, val_main_v12_apply, val_main_v13_apply, val_main_v11_apply,
    val_main_v10_apply, val_main_call1_v1_apply, pos_at]
  rfl

/-- The upper neighbour's weight times the mass at (r, s): position - floor. -/
theorem hi_at : val_main_v37 (F := Ideal) x0 x1 x2 (ix2 r s)
    = (pos (x0 (ix1 r)) (x2 (ix1 s)) - Ideal.liftRound Int.floor (pos (x0 (ix1 r)) (x2 (ix1 s))))
      * x1 (ix2 r s) := by
  rw [val_main_v37_apply, val_main_v15_apply, val_main_v10_apply, pos_at]
  rfl

/-- The array the updates are added into starts at zero everywhere. -/
theorem zero_at : val_main_v21 (F := Ideal) (ix2 r s) = cZero := by
  rw [val_main_v21_apply]
  rfl

/-- Dropping the trailing unit axis: entry (r, s, 0) of a broadcast from (10^6, 51) to (10^6, 51, 1)
    reads entry (r, s).  One statement per broadcast of the program (four of them). -/
theorem idx_unit33 (j : Fin 1) : idx_main_v33 (ix3 r s j) = ix2 r s := by
  funext a; match a with | ⟨0, _⟩ => rfl | ⟨1, _⟩ => rfl
theorem idx_unit34 (j : Fin 1) : idx_main_v34 (ix3 r s j) = ix2 r s := by
  funext a; match a with | ⟨0, _⟩ => rfl | ⟨1, _⟩ => rfl
theorem idx_unit48 (j : Fin 1) : idx_main_v48 (ix3 r s j) = ix2 r s := by
  funext a; match a with | ⟨0, _⟩ => rfl | ⟨1, _⟩ => rfl
theorem idx_unit49 (j : Fin 1) : idx_main_v49 (ix3 r s j) = ix2 r s := by
  funext a; match a with | ⟨0, _⟩ => rfl | ⟨1, _⟩ => rfl

/-- The row word at (r, s): the row number r as a 32-bit word, after the negative-index normalisation
    by the row count 10^6. -/
theorem row_at : val_main_v27 (F := Ideal) (ix2 r s)
    = Scalar.select (IntOp.cmpi .slt (BitVec.ofNat 32 r.val) 0#32)
        (IntOp.addi (BitVec.ofNat 32 r.val) 1000000#32) (BitVec.ofNat 32 r.val) := by
  rw [val_main_v27_apply, val_main_v24_apply, val_main_v26_apply, val_main_v20_apply, val_main_v19_apply,
    val_main_v18_apply, val_main_v23_apply, val_main_v25_apply]
  rfl

/-- The same row word, as the second scattered update forms it. -/
theorem row_at' : val_main_v42 (F := Ideal) (ix2 r s)
    = Scalar.select (IntOp.cmpi .slt (BitVec.ofNat 32 r.val) 0#32)
        (IntOp.addi (BitVec.ofNat 32 r.val) 1000000#32) (BitVec.ofNat 32 r.val) := by
  rw [val_main_v42_apply, val_main_v39_apply, val_main_v41_apply, val_main_v20_apply, val_main_v19_apply,
    val_main_v18_apply, val_main_v38_apply, val_main_v40_apply]
  rfl

/-- The column word of the lower neighbour at (r, s): floor(position) as a 32-bit word, after the
    negative-index normalisation by the atom count 51. -/
theorem col_lo_at : val_main_v32 (F := Ideal) x0 x2 (ix2 r s)
    = Scalar.select
        (IntOp.cmpi .slt (Ideal.fptosi 32 (Ideal.liftRound Int.floor (pos (x0 (ix1 r)) (x2 (ix1 s))))) 0#32)
        (IntOp.addi (Ideal.fptosi 32 (Ideal.liftRound Int.floor (pos (x0 (ix1 r)) (x2 (ix1 s))))) 51#32)
        (Ideal.fptosi 32 (Ideal.liftRound Int.floor (pos (x0 (ix1 r)) (x2 (ix1 s))))) := by
  rw [val_main_v32_apply, val_main_v29_apply, val_main_v31_apply, val_main_v16_apply, val_main_v10_apply,
    val_main_v28_apply, val_main_v30_apply, pos_at]
  rfl

/-- The column word of the upper neighbour at (r, s): ceil(position) as a 32-bit word, after the
    negative-index normalisation by the atom count 51. -/
theorem col_hi_at : val_main_v47 (F := Ideal) x0 x2 (ix2 r s)
    = Scalar.select
        (IntOp.cmpi .slt (Ideal.fptosi 32 (Ideal.liftRound Int.ceil (pos (x0 (ix1 r)) (x2 (ix1 s))))) 0#32)
        (IntOp.addi (Ideal.fptosi 32 (Ideal.liftRound Int.ceil (pos (x0 (ix1 r)) (x2 (ix1 s))))) 51#32)
        (Ideal.fptosi 32 (Ideal.liftRound Int.ceil (pos (x0 (ix1 r)) (x2 (ix1 s))))) := by
  rw [val_main_v47_apply, val_main_v44_apply, val_main_v46_apply, val_main_v17_apply, val_main_v11_apply,
    val_main_v43_apply, val_main_v45_apply, pos_at]
  rfl

/-- Component 0 of the first update's index pair at (r, s) is the row word. -/
theorem row_idx_lo : val_main_v35 (F := Ideal) x0 x2 (ix3 r s (0 : Fin 2))
    = Scalar.select (IntOp.cmpi .slt (BitVec.ofNat 32 r.val) 0#32)
        (IntOp.addi (BitVec.ofNat 32 r.val) 1000000#32) (BitVec.ofNat 32 r.val) := by
  unfold val_main_v35
  rw [AxisLayout.concat_last_piece _ _ 0 (by simp) (val_main_v33 (F := Ideal)) rfl 0 rfl r s (0 : Fin 1) (0 : Fin 2) rfl,
    val_main_v33_apply, idx_unit33, row_at]

/-- Component 1 of the first update's index pair at (r, s) is the lower neighbour's column word. -/
theorem col_idx_lo : val_main_v35 (F := Ideal) x0 x2 (ix3 r s (1 : Fin 2))
    = Scalar.select
        (IntOp.cmpi .slt (Ideal.fptosi 32 (Ideal.liftRound Int.floor (pos (x0 (ix1 r)) (x2 (ix1 s))))) 0#32)
        (IntOp.addi (Ideal.fptosi 32 (Ideal.liftRound Int.floor (pos (x0 (ix1 r)) (x2 (ix1 s))))) 51#32)
        (Ideal.fptosi 32 (Ideal.liftRound Int.floor (pos (x0 (ix1 r)) (x2 (ix1 s))))) := by
  unfold val_main_v35
  rw [AxisLayout.concat_last_piece _ _ 1 (by simp) (val_main_v34 (F := Ideal) x0 x2) rfl 1 rfl r s (0 : Fin 1) (1 : Fin 2) rfl,
    val_main_v34_apply, idx_unit34, col_lo_at]

/-- Component 0 of the second update's index pair at (r, s) is the row word. -/
theorem row_idx_hi : val_main_v50 (F := Ideal) x0 x2 (ix3 r s (0 : Fin 2))
    = Scalar.select (IntOp.cmpi .slt (BitVec.ofNat 32 r.val) 0#32)
        (IntOp.addi (BitVec.ofNat 32 r.val) 1000000#32) (BitVec.ofNat 32 r.val) := by
  unfold val_main_v50
  rw [AxisLayout.concat_last_piece _ _ 0 (by simp) (val_main_v48 (F := Ideal)) rfl 0 rfl r s (0 : Fin 1) (0 : Fin 2) rfl,
    val_main_v48_apply, idx_unit48, row_at']

/-- Component 1 of the second update's index pair at (r, s) is the upper neighbour's column word. -/
theorem col_idx_hi : val_main_v50 (F := Ideal) x0 x2 (ix3 r s (1 : Fin 2))
    = Scalar.select
        (IntOp.cmpi .slt (Ideal.fptosi 32 (Ideal.liftRound Int.ceil (pos (x0 (ix1 r)) (x2 (ix1 s))))) 0#32)
        (IntOp.addi (Ideal.fptosi 32 (Ideal.liftRound Int.ceil (pos (x0 (ix1 r)) (x2 (ix1 s))))) 51#32)
        (Ideal.fptosi 32 (Ideal.liftRound Int.ceil (pos (x0 (ix1 r)) (x2 (ix1 s))))) := by
  unfold val_main_v50
  rw [AxisLayout.concat_last_piece _ _ 1 (by simp) (val_main_v49 (F := Ideal) x0 x2) rfl 1 rfl r s (0 : Fin 1) (1 : Fin 2) rfl,
    val_main_v49_apply, idx_unit49, col_hi_at]

end Cert.Bellman.Ref

end
-- ==== Proof.LibPairScatter.lean ====
/-
  Adding a matrix of updates into a matrix at entries given by two-component indices (jnp's `x.at[i0, i1].add(u)`
  of an array `x : [A, B]` with index arrays `i0, i1 : [E0, E1]` and updates `u : [E0, E1]`), read at an entry.

  The scatter indices are the array `[E0, E1, 2]` with the index vector on the LAST axis: component 0 is the row,
  component 1 the column.  The scatter's dimension numbers have no window axis: both axes of the operand are inserted,
  the two index components go to them in order, and both axes of the updates are scatter axes, reading the first two
  axes of the indices.  Update element `(e0, e1)` lands at `(i0 (e0, e1), i1 (e0, e1))`, each component read as a
  SIGNED integer and not clamped, when both components are inside their axes, and is dropped otherwise (`pairDst`,
  `pairScatter_resultIdx`).  So the exact accumulation is, at `(a, b)`, the operand's element plus the sum of
  `u (e0, e1)` over the positions `(e0, e1)` whose destination is `(a, b)` (`hostScatterAdd_pair_apply`).  When
  every update of row `e0` lands in row `e0` of the operand (`A = E0`), the sum at `(a, b)` runs over row `a` of the
  updates only: over the positions `e1` whose column is `b` (`hostScatterAdd_pair_rowwise`).
-/
import Idealize.ShloMosaic.PureOps.Ideal.Laws
import Idealize.ShloMosaic.Lib.ValueIdx
import Mathlib

noncomputable section

open scoped BigOperators

namespace PairScatter

open Idealize.ShloMosaic Idealize.ShloMosaic.ValueIdx

/-- The scatter dimension numbers of `x.at[i0, i1].add(u)` for `x : [A, B]`, indices `[E0, E1, 2]` (the index vector on
    the last axis) and updates `[E0, E1]`. -/
abbrev pairScatterDims (A B E0 E1 : Nat)
    (wf : ScatterDims.WF ⟨2, ![A, B]⟩ ⟨3, ![E0, E1, 2]⟩ ⟨2, ![E0, E1]⟩ [] [0, 1] [0, 1] 2) :
    ScatterDims ⟨2, ![A, B]⟩ ⟨3, ![E0, E1, 2]⟩ ⟨2, ![E0, E1]⟩ where
  updateWindowDims := []
  insertedWindowDims := [0, 1]
  scatterDimsToOperandDims := [0, 1]
  indexVectorDim := 2
  wf := wf

/-- Where update `(e0, e1)` lands: its two index components read SIGNED and not clamped, when both are inside their
    axes; nowhere otherwise. -/
def pairDst {E0 E1 w : Nat} (A B : Nat) (idx : IVec ⟨3, ![E0, E1, 2]⟩ w) (e0 : Fin E0) (e1 : Fin E1) : Option (Fin A × Fin B) :=
  if h : (0 ≤ (idx (ix3 e0 e1 (0 : Fin 2))).toInt ∧ (idx (ix3 e0 e1 (0 : Fin 2))).toInt < A) ∧ (0 ≤ (idx (ix3 e0 e1 (1 : Fin 2))).toInt ∧ (idx (ix3 e0 e1 (1 : Fin 2))).toInt < B) then
    some (⟨(idx (ix3 e0 e1 (0 : Fin 2))).toInt.toNat, by omega⟩, ⟨(idx (ix3 e0 e1 (1 : Fin 2))).toInt.toNat, by omega⟩)
  else none

variable {A B E0 E1 w : Nat}
  (wf : ScatterDims.WF ⟨2, ![A, B]⟩ ⟨3, ![E0, E1, 2]⟩ ⟨2, ![E0, E1]⟩ [] [0, 1] [0, 1] 2)

/-- On operand axis 0 the window starts at component 0 of the index vector, read signed. -/
theorem pairScatter_start0 (idx : IVec ⟨3, ![E0, E1, 2]⟩ w) (e0 : Fin E0) (e1 : Fin E1) :
    (pairScatterDims A B E0 E1 wf).start (ix2 e0 e1) idx (0 : Fin 2) = (idx (ix3 e0 e1 (0 : Fin 2))).toInt := by
  unfold ScatterDims.start
  rw [dif_pos (show (0 : Fin 2) ∈ (pairScatterDims A B E0 E1 wf).scatterDimsToOperandDims from (by decide : (0 : Fin 2) ∈ ([0, 1] : List (Fin 2))))]
  have hsi : (pairScatterDims A B E0 E1 wf).siIdx (ix2 e0 e1) ⟨List.idxOf (0 : Fin 2) (pairScatterDims A B E0 E1 wf).scatterDimsToOperandDims,
      List.idxOf_lt_length_iff.2 (by decide : (0 : Fin 2) ∈ ([0, 1] : List (Fin 2)))⟩ = ix3 e0 e1 (0 : Fin 2) := by
    funext b; refine Fin.ext ?_
    match b with
    | ⟨0, _⟩ => rfl
    | ⟨1, _⟩ => rfl
    | ⟨2, _⟩ => rfl
  rw [hsi]

/-- Operand axis 0 is inserted: its window coordinate is 0. -/
theorem pairScatter_window0 (e0 : Fin E0) (e1 : Fin E1) :
    (pairScatterDims A B E0 E1 wf).window (ix2 e0 e1) (0 : Fin 2) = 0 := by
  unfold ScatterDims.window
  rw [dif_neg (show (0 : Fin 2) ∉ (pairScatterDims A B E0 E1 wf).sKept by simp [ScatterDims.sKept, Shape.kept, List.mem_filter])]

/-- On operand axis 1 the window starts at component 1 of the index vector, read signed. -/
theorem pairScatter_start1 (idx : IVec ⟨3, ![E0, E1, 2]⟩ w) (e0 : Fin E0) (e1 : Fin E1) :
    (pairScatterDims A B E0 E1 wf).start (ix2 e0 e1) idx (1 : Fin 2) = (idx (ix3 e0 e1 (1 : Fin 2))).toInt := by
  unfold ScatterDims.start
  rw [dif_pos (show (1 : Fin 2) ∈ (pairScatterDims A B E0 E1 wf).scatterDimsToOperandDims from (by decide : (1 : Fin 2) ∈ ([0, 1] : List (Fin 2))))]
  have hsi : (pairScatterDims A B E0 E1 wf).siIdx (ix2 e0 e1) ⟨List.idxOf (1 : Fin 2) (pairScatterDims A B E0 E1 wf).scatterDimsToOperandDims,
      List.idxOf_lt_length_iff.2 (by decide : (1 : Fin 2) ∈ ([0, 1] : List (Fin 2)))⟩ = ix3 e0 e1 (1 : Fin 2) := by
    funext b; refine Fin.ext ?_
    match b with
    | ⟨0, _⟩ => rfl
    | ⟨1, _⟩ => rfl
    | ⟨2, _⟩ => rfl
  rw [hsi]

/-- Operand axis 1 is inserted: its window coordinate is 0. -/
theorem pairScatter_window1 (e0 : Fin E0) (e1 : Fin E1) :
    (pairScatterDims A B E0 E1 wf).window (ix2 e0 e1) (1 : Fin 2) = 0 := by
  unfold ScatterDims.window
  rw [dif_neg (show (1 : Fin 2) ∉ (pairScatterDims A B E0 E1 wf).sKept by simp [ScatterDims.sKept, Shape.kept, List.mem_filter])]

/-- Where update element `(e0, e1)` lands: at its destination entry, or nowhere. -/
theorem pairScatter_resultIdx (idx : IVec ⟨3, ![E0, E1, 2]⟩ w) (e0 : Fin E0) (e1 : Fin E1) :
    (pairScatterDims A B E0 E1 wf).resultIdx? (ix2 e0 e1) idx = (pairDst A B idx e0 e1).map (fun q => ix2 q.1 q.2) := by
  have hs0 := pairScatter_start0 wf idx e0 e1
  have hs1 := pairScatter_start1 wf idx e0 e1
  have hw0 := pairScatter_window0 wf e0 e1
  have hw1 := pairScatter_window1 wf e0 e1
  have hsz0 : ((⟨2, ![A, B]⟩ : Shape).size (0 : Fin 2) : Int) = (A : Int) := rfl
  have hsz1 : ((⟨2, ![A, B]⟩ : Shape).size (1 : Fin 2) : Int) = (B : Int) := rfl
  unfold ScatterDims.resultIdx? pairDst
  by_cases h : (0 ≤ (idx (ix3 e0 e1 (0 : Fin 2))).toInt ∧ (idx (ix3 e0 e1 (0 : Fin 2))).toInt < A) ∧ (0 ≤ (idx (ix3 e0 e1 (1 : Fin 2))).toInt ∧ (idx (ix3 e0 e1 (1 : Fin 2))).toInt < B)
  · have hall : ∀ a : Fin 2, 0 ≤ (pairScatterDims A B E0 E1 wf).start (ix2 e0 e1) idx a + ((pairScatterDims A B E0 E1 wf).window (ix2 e0 e1) a : Int) ∧
        (pairScatterDims A B E0 E1 wf).start (ix2 e0 e1) idx a + ((pairScatterDims A B E0 E1 wf).window (ix2 e0 e1) a : Int) < ((⟨2, ![A, B]⟩ : Shape).size a : Int) := by
      intro a
      match a with
      | ⟨0, _⟩ =>
        show 0 ≤ (pairScatterDims A B E0 E1 wf).start (ix2 e0 e1) idx (0 : Fin 2) + ((pairScatterDims A B E0 E1 wf).window (ix2 e0 e1) (0 : Fin 2) : Int) ∧
        (pairScatterDims A B E0 E1 wf).start (ix2 e0 e1) idx (0 : Fin 2) + ((pairScatterDims A B E0 E1 wf).window (ix2 e0 e1) (0 : Fin 2) : Int) < ((⟨2, ![A, B]⟩ : Shape).size (0 : Fin 2) : Int)
        rw [hs0, hw0, hsz0]; omega
      | ⟨1, _⟩ =>
        show 0 ≤ (pairScatterDims A B E0 E1 wf).start (ix2 e0 e1) idx (1 : Fin 2) + ((pairScatterDims A B E0 E1 wf).window (ix2 e0 e1) (1 : Fin 2) : Int) ∧
        (pairScatterDims A B E0 E1 wf).start (ix2 e0 e1) idx (1 : Fin 2) + ((pairScatterDims A B E0 E1 wf).window (ix2 e0 e1) (1 : Fin 2) : Int) < ((⟨2, ![A, B]⟩ : Shape).size (1 : Fin 2) : Int)
        rw [hs1, hw1, hsz1]; omega
    rw [dif_pos hall, dif_pos h]
    simp only [Option.map_some]
    congr 1
    funext a
    refine Fin.ext ?_
    match a with
    | ⟨0, _⟩ =>
      show ((pairScatterDims A B E0 E1 wf).start (ix2 e0 e1) idx (0 : Fin 2) + ((pairScatterDims A B E0 E1 wf).window (ix2 e0 e1) (0 : Fin 2) : Int)).toNat = (idx (ix3 e0 e1 (0 : Fin 2))).toInt.toNat
      rw [hs0, hw0]; simp
    | ⟨1, _⟩ =>
      show ((pairScatterDims A B E0 E1 wf).start (ix2 e0 e1) idx (1 : Fin 2) + ((pairScatterDims A B E0 E1 wf).window (ix2 e0 e1) (1 : Fin 2) : Int)).toNat = (idx (ix3 e0 e1 (1 : Fin 2))).toInt.toNat
      rw [hs1, hw1]; simp
  · have hnall : ¬ ∀ a : Fin 2, 0 ≤ (pairScatterDims A B E0 E1 wf).start (ix2 e0 e1) idx a + ((pairScatterDims A B E0 E1 wf).window (ix2 e0 e1) a : Int) ∧
        (pairScatterDims A B E0 E1 wf).start (ix2 e0 e1) idx a + ((pairScatterDims A B E0 E1 wf).window (ix2 e0 e1) a : Int) < ((⟨2, ![A, B]⟩ : Shape).size a : Int) := by
      intro hall
      have h0 := hall (0 : Fin 2)
      have h1 := hall (1 : Fin 2)
      rw [hs0, hw0, hsz0] at h0
      rw [hs1, hw1, hsz1] at h1
      apply h
      omega
    rw [dif_neg hnall, dif_neg h]
    rfl

/-- Two rank-2 indices given by coordinates are equal exactly when the coordinates are. -/
theorem ix2_eq_ix2 {n0 n1 : Nat} (a a' : Fin n0) (b b' : Fin n1) : ix2 a b = ix2 a' b' ↔ a = a' ∧ b = b' := by
  constructor
  · intro h; exact ⟨congrFun h 0, congrFun h 1⟩
  · rintro ⟨rfl, rfl⟩; rfl

/-- Update `(e0, e1)` lands at entry `(a, b)` exactly when its destination is `(a, b)`. -/
theorem pairScatter_resultIdx_eq_iff (idx : IVec ⟨3, ![E0, E1, 2]⟩ w) (e0 : Fin E0) (e1 : Fin E1) (a : Fin A) (b : Fin B) :
    (pairScatterDims A B E0 E1 wf).resultIdx? (ix2 e0 e1) idx = some (ix2 a b) ↔ pairDst A B idx e0 e1 = some (a, b) := by
  rw [pairScatter_resultIdx]
  cases pairDst A B idx e0 e1 with
  | none => simp
  | some q =>
    obtain ⟨q0, q1⟩ := q
    simp only [Option.map_some, Option.some.injEq, Prod.mk.injEq]
    rw [ix2_eq_ix2]

/-- THE ACCUMULATING SCATTER READ AT `(a, b)`: the operand's element plus the updates at the positions whose
    destination is `(a, b)`. -/
theorem hostScatterAdd_pair_apply (x : (⟨2, ![A, B]⟩ : Shape).Idx → EReal) (idx : IVec ⟨3, ![E0, E1, 2]⟩ w)
    (upd : (⟨2, ![E0, E1]⟩ : Shape).Idx → EReal) (a : Fin A) (b : Fin B) :
    Ideal.hostScatterAdd (pairScatterDims A B E0 E1 wf) x idx upd (ix2 a b)
      = x (ix2 a b) + ∑ e0 : Fin E0, ∑ e1 : Fin E1, if pairDst A B idx e0 e1 = some (a, b) then upd (ix2 e0 e1) else 0 := by
  unfold Ideal.hostScatterAdd
  congr 1
  rw [Finset.sum_filter, sum_idx2]
  refine Finset.sum_congr rfl fun e0 _ => Finset.sum_congr rfl fun e1 _ => ?_
  simp only [pairScatter_resultIdx_eq_iff]

/-- THE ROW-WISE FORM: when every update of row `e0` lands in row `e0` of the operand, at column `col e0 e1`, the
    entry `(a, b)` receives the updates of row `a` whose column is `b`. -/
theorem hostScatterAdd_pair_rowwise {A B E1 w : Nat}
    (wf : ScatterDims.WF ⟨2, ![A, B]⟩ ⟨3, ![A, E1, 2]⟩ ⟨2, ![A, E1]⟩ [] [0, 1] [0, 1] 2)
    (x : (⟨2, ![A, B]⟩ : Shape).Idx → EReal) (idx : IVec ⟨3, ![A, E1, 2]⟩ w)
    (upd : (⟨2, ![A, E1]⟩ : Shape).Idx → EReal) (col : Fin A → Fin E1 → Fin B)
    (hdst : ∀ e0 e1, pairDst A B idx e0 e1 = some (e0, col e0 e1)) (a : Fin A) (b : Fin B) :
    Ideal.hostScatterAdd (pairScatterDims A B A E1 wf) x idx upd (ix2 a b)
      = x (ix2 a b) + ∑ e1 : Fin E1, if col a e1 = b then upd (ix2 a e1) else 0 := by
  rw [hostScatterAdd_pair_apply]
  congr 1
  have hinner : ∀ e0 : Fin A, (∑ e1 : Fin E1, if pairDst A B idx e0 e1 = some (a, b) then upd (ix2 e0 e1) else 0)
      = if e0 = a then (∑ e1 : Fin E1, if col a e1 = b then upd (ix2 a e1) else 0) else 0 := by
    intro e0
    by_cases he : e0 = a
    · subst he
      rw [if_pos rfl]
      refine Finset.sum_congr rfl fun e1 _ => ?_
      simp only [hdst, Option.some.injEq, Prod.mk.injEq, true_and]
    · rw [if_neg he]
      refine Finset.sum_eq_zero fun e1 _ => ?_
      rw [if_neg]
      rw [hdst]
      intro hq
      exact he (congrArg Prod.fst (Option.some.inj hq))
  simp only [hinner, Finset.sum_ite_eq', Finset.mem_univ, if_true]

end PairScatter

end
-- ==== Proof.IndexWords.lean ====
/- The 32-bit index words formed from a float position in [0, 50]: the floor and the ceiling
   read back as themselves, stay inside [0, 51), and the negative-index normalisation leaves
   a non-negative word alone. -/
import Idealize.ShloMosaic.PureOps.Ideal
import Mathlib

noncomputable section

namespace Cert.Bellman

open Idealize.ShloMosaic

/-- The normalisation select(w < 0, w + N, w) of a possibly negative index leaves a word that
    reads non-negative alone: the signed comparison w < 0 is false. -/
theorem wrap_nonneg (w N : BitVec 32) (h : 0 ≤ w.toInt) :
    Scalar.select (IntOp.cmpi .slt w 0#32) (IntOp.addi w N) w = w := by
  have hs : w.slt 0#32 = false := by
    rw [Bool.eq_false_iff, ne_eq, BitVec.slt_iff_toInt_lt]
    simp only [BitVec.toInt_zero]
    omega
  simp [Scalar.select, IntOp.cmpi, hs]

/-- An integer n with 0 ≤ n ≤ 50, as a real, converts to the 32-bit word that reads back n:
    truncation toward zero of an integer-valued real is that integer, the clamp to
    [-2^31, 2^31 - 1] does nothing to it, and a small non-negative number survives the
    reduction mod 2^32. -/
theorem int_word (n : ℤ) (h0 : 0 ≤ n) (h1 : n ≤ 50) :
    (Ideal.fptosi 32 (((n : ℝ)) : EReal)).toInt = n := by
  have hr : (0 : ℝ) ≤ (n : ℝ) := by exact_mod_cast h0
  rw [Ideal.fptosi, Ideal.toIntClamped_coe, if_pos hr, Int.floor_intCast, BitVec.toInt_ofInt]
  have e1 : min (((2 ^ (32 - 1) : ℕ) : ℤ) - 1) n = n := by
    apply min_eq_right; norm_num; omega
  have e2 : max (-((2 ^ (32 - 1) : ℕ) : ℤ)) n = n := by
    apply max_eq_right; norm_num; omega
  rw [e1, e2]
  rw [Int.bmod_eq_of_le] <;> omega

/-- For 0 ≤ x ≤ 50 the floor lies in [0, 51). -/
theorem floor_range (x : ℝ) (hx0 : 0 ≤ x) (hx1 : x ≤ 50) : 0 ≤ ⌊x⌋ ∧ ⌊x⌋ < 51 := by
  refine ⟨Int.floor_nonneg.2 hx0, ?_⟩
  have : ⌊x⌋ ≤ 50 := by
    have h := Int.floor_le x
    have : ((⌊x⌋ : ℤ) : ℝ) ≤ ((50 : ℤ) : ℝ) := by push_cast; linarith
    exact_mod_cast this
  omega

/-- For 0 ≤ x ≤ 50 the ceiling lies in [0, 51). -/
theorem ceil_range (x : ℝ) (hx0 : 0 ≤ x) (hx1 : x ≤ 50) : 0 ≤ ⌈x⌉ ∧ ⌈x⌉ < 51 := by
  refine ⟨Int.ceil_nonneg hx0, ?_⟩
  have : ⌈x⌉ ≤ 50 := Int.ceil_le.2 (by push_cast; exact hx1)
  omega

/-- The word formed from floor(x), 0 ≤ x ≤ 50, reads back ⌊x⌋. -/
theorem floor_word (x : ℝ) (hx0 : 0 ≤ x) (hx1 : x ≤ 50) :
    (Ideal.fptosi 32 (Ideal.liftRound Int.floor (x : EReal))).toInt = ⌊x⌋ := by
  obtain ⟨h0, h1⟩ := floor_range x hx0 hx1
  rw [Ideal.liftRound_coe]
  exact int_word ⌊x⌋ h0 (by omega)

/-- The word formed from ceil(x), 0 ≤ x ≤ 50, reads back ⌈x⌉. -/
theorem ceil_word (x : ℝ) (hx0 : 0 ≤ x) (hx1 : x ≤ 50) :
    (Ideal.fptosi 32 (Ideal.liftRound Int.ceil (x : EReal))).toInt = ⌈x⌉ := by
  obtain ⟨h0, h1⟩ := ceil_range x hx0 hx1
  rw [Ideal.liftRound_coe]
  exact int_word ⌈x⌉ h0 (by omega)

/-- A row number below 10^6 is far below 2^31, so its 32-bit word reads back the number. -/
theorem row_word (r : ℕ) (hr : r < 1000000) : (BitVec.ofNat 32 r).toInt = (r : ℤ) := by
  rw [BitVec.toInt_ofNat']
  rw [Int.bmod_eq_of_le] <;> omega

end Cert.Bellman

end
-- ==== Proof.HatLaw.lean ====
/-
  The scalar law that joins the two ways of projecting a mass onto the atoms.

  A mass `p` at a fractional position `x` among the atoms is split between the two neighbouring atoms by linear
  interpolation: atom `⌊x⌋` receives `(⌈x⌉ - x) * p` and atom `⌈x⌉` receives `(x - ⌊x⌋) * p`, except that when `x` is itself
  an atom (`⌊x⌋ = ⌈x⌉`) the lower coefficient is `1` (and the upper one is `0`).  Equivalently, every atom `t` receives
  `p * max (1 - |x - t|) 0`, the mass times the hat weight of `t` at `x`: for `t = ⌊x⌋` the distance is `x - ⌊x⌋ < 1`, for
  `t = ⌈x⌉` it is `⌈x⌉ - x < 1`, and every other integer is at distance at least `1` (`hat_law_real`, `hat_law`).

  Also: the atom numbers below `51` read off their 32-bit words are themselves (`atomNo_eq`), and the position of a real
  reward and a real atom value is a real number between `0` and `50`: the clamped shifted value lies in `[-10, 10]`, and
  the spacing `13421773 / 33554432` is a little ABOVE `2 / 5`, so `20` spacings' worth is below `50` (`pos_real`).
-/
import proofs.«172951_j42563125903609_2_alg».proof.Proof.HatSpec
import proofs.«172951_j42563125903609_2_alg».proof.Proof.FiniteInputs
import Idealize.ShloMosaic.PureOps.Ideal
import Mathlib

noncomputable section

namespace Cert.Bellman

open Idealize.ShloMosaic

/-- The maximum of two real numbers, as extended reals. -/
theorem coe_max_real (a b : ℝ) : max (a : EReal) (b : EReal) = ((max a b : ℝ) : EReal) :=
  (EReal.coe_strictMono.monotone.map_max).symm

/-- The minimum of two real numbers, as extended reals. -/
theorem coe_min_real (a b : ℝ) : min (a : EReal) (b : EReal) = ((min a b : ℝ) : EReal) :=
  (EReal.coe_strictMono.monotone.map_min).symm

/-- THE LAW ON THE REALS: the linear-interpolation split of a mass `p` at `x` gives the integer `t` the share
    `p * max (1 - |x - t|) 0`. -/
theorem hat_law_real (x p : ℝ) (t : ℤ) :
    (if ⌊x⌋ = t then (if ⌊x⌋ = ⌈x⌉ then (1 : ℝ) else ((⌈x⌉ : ℤ) : ℝ) - x) * p else 0)
      + (if ⌈x⌉ = t then (x - ((⌊x⌋ : ℤ) : ℝ)) * p else 0)
      = p * max (1 - max (x - (t : ℝ)) (-(x - (t : ℝ)))) 0 := by
  have h1 : ((⌊x⌋ : ℤ) : ℝ) ≤ x := Int.floor_le x
  have h2 : x < ((⌊x⌋ : ℤ) : ℝ) + 1 := Int.lt_floor_add_one x
  have h3 : x ≤ ((⌈x⌉ : ℤ) : ℝ) := Int.le_ceil x
  have h4 : ((⌈x⌉ : ℤ) : ℝ) < x + 1 := Int.ceil_lt_add_one x
  have h6 : ⌈x⌉ ≤ ⌊x⌋ + 1 := Int.ceil_le_floor_add_one x
  generalize ⌊x⌋ = f at *
  generalize ⌈x⌉ = c at *
  have hfc : f ≤ c := by exact_mod_cast (h1.trans h3)
  rcases lt_trichotomy t f with hlt | heq | hgt
  · -- `t` below the floor: `x - t ≥ 1`, nothing on either side
    have hne1 : f ≠ t := by omega
    have hne2 : c ≠ t := by omega
    have hr : (t : ℝ) + 1 ≤ (f : ℝ) := by exact_mod_cast hlt
    rw [if_neg hne1, if_neg hne2]
    have hm : max (1 - max (x - (t : ℝ)) (-(x - (t : ℝ)))) 0 = 0 := by
      apply max_eq_right
      have : 1 ≤ max (x - (t : ℝ)) (-(x - (t : ℝ))) := le_max_of_le_left (by linarith)
      linarith
    rw [hm]; ring
  · -- `t` is the floor
    subst heq
    rw [if_pos rfl]
    by_cases hcf : t = c
    · -- `x` is the integer `t`: the whole mass
      subst hcf
      have hx : x = (t : ℝ) := le_antisymm h3 h1
      rw [if_pos rfl, if_pos rfl, hx]
      simp
    · -- `x` strictly between `t` and `t + 1`: the share `t + 1 - x`
      have hc1 : c = t + 1 := by omega
      have hc : (c : ℝ) = (t : ℝ) + 1 := by exact_mod_cast hc1
      rw [if_neg hcf, if_neg (Ne.symm hcf)]
      have hm : max (1 - max (x - (t : ℝ)) (-(x - (t : ℝ)))) 0 = 1 - (x - (t : ℝ)) := by
        rw [max_eq_left (by linarith : -(x - (t : ℝ)) ≤ x - (t : ℝ)), max_eq_left (by linarith)]
      rw [hm, hc]; ring
  · by_cases hct : c = t
    · -- `t` is the ceiling, one above the floor: the share `x - f`
      subst hct
      have hc1 : c = f + 1 := by omega
      have hc : (c : ℝ) = (f : ℝ) + 1 := by exact_mod_cast hc1
      have hne : f ≠ c := by omega
      rw [if_neg hne, if_pos rfl]
      have hm : max (1 - max (x - (c : ℝ)) (-(x - (c : ℝ)))) 0 = x - (f : ℝ) := by
        rw [max_eq_right (by linarith : x - (c : ℝ) ≤ -(x - (c : ℝ))), max_eq_left (by linarith)]
        rw [hc]; ring
      rw [hm]; ring
    · -- `t` above the ceiling: `t - x ≥ 1`, nothing on either side
      have hne1 : f ≠ t := by omega
      have hlt : c < t := by omega
      have hr : (c : ℝ) + 1 ≤ (t : ℝ) := by exact_mod_cast hlt
      rw [if_neg hne1, if_neg hct]
      have hm : max (1 - max (x - (t : ℝ)) (-(x - (t : ℝ)))) 0 = 0 := by
        apply max_eq_right
        have : 1 ≤ max (x - (t : ℝ)) (-(x - (t : ℝ))) := le_max_of_le_right (by linarith)
        linarith
      rw [hm]; ring

/-- The hat weight of a real atom at a real position is the real hat weight. -/
theorem hat_coe (x t : ℝ) : hat (x : EReal) (t : EReal) = ((max (1 - max (x - t) (-(x - t))) 0 : ℝ) : EReal) := by
  unfold hat cOne cZero
  rw [lit_1, lit_0, ← EReal.coe_sub, ← EReal.coe_neg, coe_max_real, ← EReal.coe_sub, coe_max_real]

/-- The lower coefficient of the split at a real position: `1` when the position is an atom, else the distance to the
    ceiling. -/
theorem lower_coeff_coe (x : ℝ) :
    Scalar.select (Ideal.cmp .oeq (Ideal.liftRound Int.floor (x : EReal)) (Ideal.liftRound Int.ceil (x : EReal))) cOne
        (Ideal.liftRound Int.ceil (x : EReal) - (x : EReal))
      = (((if ⌊x⌋ = ⌈x⌉ then (1 : ℝ) else ((⌈x⌉ : ℤ) : ℝ) - x) : ℝ) : EReal) := by
  have hdec : Ideal.cmp .oeq (Ideal.liftRound Int.floor (x : EReal)) (Ideal.liftRound Int.ceil (x : EReal))
      = BitVec.ofBool (decide (⌊x⌋ = ⌈x⌉)) := by
    show BitVec.ofBool (decide ((((⌊x⌋ : ℤ) : ℝ) : EReal) = (((⌈x⌉ : ℤ) : ℝ) : EReal))) = _
    congr 1
    rw [decide_eq_decide, EReal.coe_eq_coe_iff, Int.cast_inj]
  rw [hdec]
  unfold Scalar.select cOne
  by_cases h : ⌊x⌋ = ⌈x⌉
  · rw [if_pos h, decide_eq_true h, if_pos (by rfl), lit_1]
  · rw [if_neg h, decide_eq_false h, if_neg (by decide)]
    show (((⌈x⌉ : ℤ) : ℝ) : EReal) - (x : EReal) = _
    rw [← EReal.coe_sub]

/-- THE LAW, for a real position `x`, a real mass `p` and an atom number `t`: the two interpolation shares that reach
    atom `t` add up to the mass times the hat weight of `t` at `x`. -/
theorem hat_law (x p : ℝ) (t : ℕ) :
    (if ⌊x⌋ = (t : ℤ) then (Scalar.select (Ideal.cmp .oeq (Ideal.liftRound Int.floor (x : EReal)) (Ideal.liftRound Int.ceil (x : EReal))) cOne (Ideal.liftRound Int.ceil (x : EReal) - (x : EReal))) * (p : EReal) else 0)
      + (if ⌈x⌉ = (t : ℤ) then ((x : EReal) - Ideal.liftRound Int.floor (x : EReal)) * (p : EReal) else 0)
      = (p : EReal) * hat (x : EReal) ((t : ℝ) : EReal) := by
  have hR := hat_law_real x p (t : ℤ)
  rw [Int.cast_natCast] at hR
  have hfl : Ideal.liftRound Int.floor (x : EReal) = (((⌊x⌋ : ℤ) : ℝ) : EReal) := rfl
  rw [lower_coeff_coe, hat_coe, hfl, ← EReal.coe_mul p, ← hR]
  by_cases hf : ⌊x⌋ = (t : ℤ) <;> by_cases hc : ⌈x⌉ = (t : ℤ)
  · simp only [if_pos hf, if_pos hc, EReal.coe_add, EReal.coe_mul, EReal.coe_sub]
  · simp only [if_pos hf, if_neg hc, EReal.coe_add, EReal.coe_mul, EReal.coe_sub, EReal.coe_zero]
  · simp only [if_neg hf, if_pos hc, EReal.coe_add, EReal.coe_mul, EReal.coe_sub, EReal.coe_zero]
  · simp only [if_neg hf, if_neg hc, EReal.coe_add, EReal.coe_zero]

/-- An atom number below `51`, read as a signed 32-bit word, is itself. -/
theorem atomNo_eq (q : ℕ) (hq : q < 51) : atomNo q = ((q : ℝ) : EReal) := by
  unfold atomNo
  have h : (BitVec.ofNat 32 q).toInt = (q : ℤ) := by
    rw [BitVec.toInt_eq_toNat_cond, BitVec.toNat_ofNat]
    have hmod : q % 2 ^ 32 = q := Nat.mod_eq_of_lt (by omega)
    rw [hmod, if_pos (by omega)]
  rw [h, Int.cast_natCast]

/-- The position of a real reward and a real atom value is a real number in `[0, 50]`: the clamped sum lies in
    `[-10, 10]`, and the spacing is a little ABOVE `2 / 5`, so `20` divided by it is below `50`. -/
theorem pos_real (r a : ℝ) : ∃ x : ℝ, pos (r : EReal) (a : EReal) = (x : EReal) ∧ 0 ≤ x ∧ x ≤ 50 := by
  have hδ : (13421773 / 33554432 : ℝ) ≠ 0 := by norm_num
  have hm1 : (-10 : ℝ) ≤ min 10 (max (-10) (r + a)) := le_min (by norm_num) (le_max_left _ _)
  have hm2 : min 10 (max (-10) (r + a)) ≤ (10 : ℝ) := min_le_left _ _
  have hk : (1 / (13421773 / 33554432) : ℝ) = 33554432 / 13421773 := by norm_num
  refine ⟨(min 10 (max (-10) (r + a)) - (-10)) * (1 / (13421773 / 33554432)), ?_, ?_, ?_⟩
  · unfold pos cHi cLo cDelta
    rw [lit_10, lit_neg10, lit_delta, ← EReal.coe_add, coe_max_real, coe_min_real, ← EReal.coe_sub,
      Ideal.div_coe hδ, ← EReal.coe_mul]
  · rw [hk]
    exact mul_nonneg (by linarith) (by norm_num)
  · rw [hk]
    have h20 : min 10 (max (-10) (r + a)) - (-10) ≤ (20 : ℝ) := by linarith
    calc (min 10 (max (-10) (r + a)) - (-10)) * (33554432 / 13421773 : ℝ)
        ≤ 20 * (33554432 / 13421773 : ℝ) := mul_le_mul_of_nonneg_right h20 (by norm_num)
      _ ≤ 50 := by norm_num

end Cert.Bellman

end
-- ==== Proof.ScatterProjection.lean ====
/-
  The two accumulating scatters of the projection, read at an entry.

  Row `r` of the projected table starts at zero.  A first accumulating scatter adds, for every source atom `s` of the
  row, the lower-neighbour share of its mass at the entry (row `r`, column `⌊X r s⌋`); a second one adds the
  upper-neighbour share at (row `r`, column `⌈X r s⌉`), where `X r s ∈ [0, 50]` is the fractional position of the shifted
  atom.  The index words are the row number and the floor / ceiling of the position converted to signed 32-bit
  integers, each passed through the normalisation of a possibly negative index, which leaves them alone because they
  are non-negative; so every update of row `r` lands in row `r`, at the floor (or ceiling) column, and nothing is
  dropped.  The entry `(r, t)` therefore receives `Σ_s [⌊X r s⌋ = t] lower share + Σ_s [⌈X r s⌉ = t] upper share`, and by
  the scalar law of the interpolation split this is `Σ_s P r s * max (1 - |X r s - t|) 0` (`scatter_projection`).
-/
import proofs.«172951_j42563125903609_2_alg».proof.Proof.LibPairScatter
import proofs.«172951_j42563125903609_2_alg».proof.Proof.IndexWords
import proofs.«172951_j42563125903609_2_alg».proof.Proof.HatLaw
import proofs.«172951_j42563125903609_2_alg».proof.Proof.HatSpec
import proofs.«172951_j42563125903609_2_alg».proof.Proof.FiniteInputs

noncomputable section

open scoped BigOperators

namespace Cert.Bellman

open Idealize.ShloMosaic Idealize.ShloMosaic.ValueIdx PairScatter

/-- An update whose two index components read as the numbers of a row `a` and a column `b` of the operand lands at
    `(a, b)`. -/
theorem pairDst_eq_some {E0 E1 w A B : Nat} (idx : IVec ⟨3, ![E0, E1, 2]⟩ w) (e0 : Fin E0) (e1 : Fin E1)
    (a : Fin A) (b : Fin B)
    (h0 : (idx (ix3 e0 e1 (0 : Fin 2))).toInt = (a.val : ℤ))
    (h1 : (idx (ix3 e0 e1 (1 : Fin 2))).toInt = (b.val : ℤ)) :
    pairDst A B idx e0 e1 = some (a, b) := by
  have ha := a.isLt
  have hb := b.isLt
  unfold pairDst
  rw [dif_pos ⟨⟨by omega, by omega⟩, ⟨by omega, by omega⟩⟩]
  simp only [Option.some.injEq, Prod.mk.injEq]
  refine ⟨Fin.ext ?_, Fin.ext ?_⟩
  · show (idx (ix3 e0 e1 (0 : Fin 2))).toInt.toNat = a.val
    omega
  · show (idx (ix3 e0 e1 (1 : Fin 2))).toInt.toNat = b.val
    omega

/-- The column of the lower neighbour of position `X r s ∈ [0, 50]`: its floor, one of the `51` atoms. -/
def floorCol (X : Fin 1000000 → Fin 51 → ℝ) (hX : ∀ r s, 0 ≤ X r s ∧ X r s ≤ 50) (r : Fin 1000000) (s : Fin 51) : Fin 51 :=
  ⟨⌊X r s⌋.toNat, by have := floor_range (X r s) (hX r s).1 (hX r s).2; omega⟩

/-- The column of the upper neighbour of position `X r s ∈ [0, 50]`: its ceiling, one of the `51` atoms. -/
def ceilCol (X : Fin 1000000 → Fin 51 → ℝ) (hX : ∀ r s, 0 ≤ X r s ∧ X r s ≤ 50) (r : Fin 1000000) (s : Fin 51) : Fin 51 :=
  ⟨⌈X r s⌉.toNat, by have := ceil_range (X r s) (hX r s).1 (hX r s).2; omega⟩

theorem floorCol_val (X : Fin 1000000 → Fin 51 → ℝ) (hX : ∀ r s, 0 ≤ X r s ∧ X r s ≤ 50) (r : Fin 1000000) (s : Fin 51) :
    ((floorCol X hX r s).val : ℤ) = ⌊X r s⌋ := by
  have := floor_range (X r s) (hX r s).1 (hX r s).2
  show ((⌊X r s⌋.toNat : ℕ) : ℤ) = ⌊X r s⌋
  omega

theorem ceilCol_val (X : Fin 1000000 → Fin 51 → ℝ) (hX : ∀ r s, 0 ≤ X r s ∧ X r s ≤ 50) (r : Fin 1000000) (s : Fin 51) :
    ((ceilCol X hX r s).val : ℤ) = ⌈X r s⌉ := by
  have := ceil_range (X r s) (hX r s).1 (hX r s).2
  show ((⌈X r s⌉.toNat : ℕ) : ℤ) = ⌈X r s⌉
  omega

/-- The lower neighbour's column is atom `t` exactly when the floor of the position is `t`. -/
theorem floorCol_eq_iff (X : Fin 1000000 → Fin 51 → ℝ) (hX : ∀ r s, 0 ≤ X r s ∧ X r s ≤ 50) (r : Fin 1000000) (s t : Fin 51) :
    floorCol X hX r s = t ↔ ⌊X r s⌋ = (t.val : ℤ) := by
  have hv := floorCol_val X hX r s
  constructor
  · intro h; rw [← h]; exact hv.symm
  · intro h; exact Fin.ext (by omega)

/-- The upper neighbour's column is atom `t` exactly when the ceiling of the position is `t`. -/
theorem ceilCol_eq_iff (X : Fin 1000000 → Fin 51 → ℝ) (hX : ∀ r s, 0 ≤ X r s ∧ X r s ≤ 50) (r : Fin 1000000) (s t : Fin 51) :
    ceilCol X hX r s = t ↔ ⌈X r s⌉ = (t.val : ℤ) := by
  have hv := ceilCol_val X hX r s
  constructor
  · intro h; rw [← h]; exact hv.symm
  · intro h; exact Fin.ext (by omega)

/-- THE TWO SCATTERS AT AN ENTRY: scattering the lower-neighbour shares at (row, floor) and then the upper-neighbour
    shares at (row, ceiling) into zeros gives, at `(r, t)`, the sum over the source atoms of the mass times the hat
    weight of atom `t` at the source's position. -/
theorem scatter_projection
    (wf : ScatterDims.WF ⟨2, ![1000000, 51]⟩ ⟨3, ![1000000, 51, 2]⟩ ⟨2, ![1000000, 51]⟩ [] [0, 1] [0, 1] 2)
    (X P : Fin 1000000 → Fin 51 → ℝ) (hX : ∀ r s, 0 ≤ X r s ∧ X r s ≤ 50)
    (z u1 u2 : (⟨2, ![1000000, 51]⟩ : Shape).Idx → EReal) (i1 i2 : IVec ⟨3, ![1000000, 51, 2]⟩ 32)
    (hz : ∀ r t, z (ix2 r t) = cZero)
    (hr1 : ∀ r s, i1 (ix3 r s (0 : Fin 2)) = Scalar.select (IntOp.cmpi .slt (BitVec.ofNat 32 r.val) 0#32) (IntOp.addi (BitVec.ofNat 32 r.val) 1000000#32) (BitVec.ofNat 32 r.val))
    (hc1 : ∀ r s, i1 (ix3 r s (1 : Fin 2)) = Scalar.select (IntOp.cmpi .slt (Ideal.fptosi 32 (Ideal.liftRound Int.floor ((X r s : ℝ) : EReal))) 0#32) (IntOp.addi (Ideal.fptosi 32 (Ideal.liftRound Int.floor ((X r s : ℝ) : EReal))) 51#32) (Ideal.fptosi 32 (Ideal.liftRound Int.floor ((X r s : ℝ) : EReal))))
    (hr2 : ∀ r s, i2 (ix3 r s (0 : Fin 2)) = Scalar.select (IntOp.cmpi .slt (BitVec.ofNat 32 r.val) 0#32) (IntOp.addi (BitVec.ofNat 32 r.val) 1000000#32) (BitVec.ofNat 32 r.val))
    (hc2 : ∀ r s, i2 (ix3 r s (1 : Fin 2)) = Scalar.select (IntOp.cmpi .slt (Ideal.fptosi 32 (Ideal.liftRound Int.ceil ((X r s : ℝ) : EReal))) 0#32) (IntOp.addi (Ideal.fptosi 32 (Ideal.liftRound Int.ceil ((X r s : ℝ) : EReal))) 51#32) (Ideal.fptosi 32 (Ideal.liftRound Int.ceil ((X r s : ℝ) : EReal))))
    (hu1 : ∀ r s, u1 (ix2 r s) = (Scalar.select (Ideal.cmp .oeq (Ideal.liftRound Int.floor ((X r s : ℝ) : EReal)) (Ideal.liftRound Int.ceil ((X r s : ℝ) : EReal))) cOne (Ideal.liftRound Int.ceil ((X r s : ℝ) : EReal) - ((X r s : ℝ) : EReal))) * ((P r s : ℝ) : EReal))
    (hu2 : ∀ r s, u2 (ix2 r s) = (((X r s : ℝ) : EReal) - Ideal.liftRound Int.floor ((X r s : ℝ) : EReal)) * ((P r s : ℝ) : EReal))
    (r : Fin 1000000) (t : Fin 51) :
    Ideal.hostScatterAdd (pairScatterDims 1000000 51 1000000 51 wf)
        (Ideal.hostScatterAdd (pairScatterDims 1000000 51 1000000 51 wf) z i1 u1) i2 u2 (ix2 r t)
      = ∑ s : Fin 51, ((P r s : ℝ) : EReal) * hat ((X r s : ℝ) : EReal) (atomNo t.val) := by
  -- every update of the first scatter lands in its own row, at the floor column
  have hdst1 : ∀ e0 e1, pairDst 1000000 51 i1 e0 e1 = some (e0, floorCol X hX e0 e1) := by
    intro e0 e1
    have hrow := row_word e0.val e0.isLt
    have hfw := floor_word (X e0 e1) (hX e0 e1).1 (hX e0 e1).2
    have hfr := floor_range (X e0 e1) (hX e0 e1).1 (hX e0 e1).2
    apply pairDst_eq_some
    · rw [hr1, wrap_nonneg _ _ (by rw [hrow]; omega), hrow]
    · rw [hc1, wrap_nonneg _ _ (by rw [hfw]; exact hfr.1), hfw]
      exact (floorCol_val X hX e0 e1).symm
  -- every update of the second scatter lands in its own row, at the ceiling column
  have hdst2 : ∀ e0 e1, pairDst 1000000 51 i2 e0 e1 = some (e0, ceilCol X hX e0 e1) := by
    intro e0 e1
    have hrow := row_word e0.val e0.isLt
    have hcw := ceil_word (X e0 e1) (hX e0 e1).1 (hX e0 e1).2
    have hcr := ceil_range (X e0 e1) (hX e0 e1).1 (hX e0 e1).2
    apply pairDst_eq_some
    · rw [hr2, wrap_nonneg _ _ (by rw [hrow]; omega), hrow]
    · rw [hc2, wrap_nonneg _ _ (by rw [hcw]; exact hcr.1), hcw]
      exact (ceilCol_val X hX e0 e1).symm
  have hzero : cZero = (0 : EReal) := by unfold cZero; rw [lit_0, EReal.coe_zero]
  rw [hostScatterAdd_pair_rowwise wf _ i2 u2 (ceilCol X hX) hdst2 r t,
    hostScatterAdd_pair_rowwise wf z i1 u1 (floorCol X hX) hdst1 r t, hz, hzero, zero_add,
    ← Finset.sum_add_distrib]
  refine Finset.sum_congr rfl fun s _ => ?_
  rw [hu1, hu2, atomNo_eq t.val t.isLt, ← hat_law (X r s) (P r s) t.val]
  simp only [floorCol_eq_iff, ceilCol_eq_iff]

end Cert.Bellman

end
-- ==== Proof.RefValue.lean ====
/-
  The host program's value: for real inputs its result array holds, at (r, t), the sum over the source atoms
  of the mass times the share atom t receives.

  The program computes each source atom's fractional position, its floor and ceiling, the two interpolation
  coefficients, and adds coefficient times mass into a zero array at (row, floor) and then at (row, ceiling).
  For real inputs every position is a real number between 0 and 50, so both landing columns are atoms of the
  row itself, and the two accumulations together are the hat-weighted sum.
-/
import proofs.«172951_j42563125903609_2_alg».proof.Proof.RefStages
import proofs.«172951_j42563125903609_2_alg».proof.Proof.ScatterProjection

noncomputable section

open scoped BigOperators

namespace Cert.Bellman.Ref

open Cert.ReferenceIdeal Cert.ReferenceIdeal.Gen Cert.ReferenceIdeal.Read Idealize.ShloMosaic Idealize.ShloMosaic.ValueIdx
open Cert.Bellman PairScatter

/-- The program's scatter dimension numbers are those of adding at (row, column) pairs. -/
theorem dims_eq : scatter_S1000000x51_S1000000x51x2_S1000000x51_n_01_01_2
    = pairScatterDims 1000000 51 1000000 51 scatter_S1000000x51_S1000000x51x2_S1000000x51_n_01_01_2_wf := rfl

/-- At the exact instance the host's accumulating scatter is the exact sum, twice over. -/
theorem twice_exact {s si u : Shape} {w : ℕ} (d : ScatterDims s si u) (z : FVec Ideal s .f32) (i1 i2 : IVec si w)
    (u1 u2 : FVec Ideal u .f32) :
    Host.scatterAdd d (Host.scatterAdd d z i1 u1) i2 u2 = Ideal.hostScatterAdd d (Ideal.hostScatterAdd d z i1 u1) i2 u2 := rfl

/-- The result is the second accumulation on top of the first, both exact sums. -/
theorem result_unfold (x0 : (⟨S1000000, .f32⟩ : BufTy).Contents (Elt Ideal)) (x1 : (⟨S1000000x51, .f32⟩ : BufTy).Contents (Elt Ideal))
    (x2 : (⟨S51, .f32⟩ : BufTy).Contents (Elt Ideal)) :
    val_main_v51 (F := Ideal) x0 x1 x2
      = Ideal.hostScatterAdd (pairScatterDims 1000000 51 1000000 51 scatter_S1000000x51_S1000000x51x2_S1000000x51_n_01_01_2_wf)
          (Ideal.hostScatterAdd (pairScatterDims 1000000 51 1000000 51 scatter_S1000000x51_S1000000x51x2_S1000000x51_n_01_01_2_wf)
            (val_main_v21 (F := Ideal)) (val_main_v35 (F := Ideal) x0 x2) (val_main_v22 (F := Ideal) x0 x1 x2))
          (val_main_v50 (F := Ideal) x0 x2) (val_main_v37 (F := Ideal) x0 x1 x2) := by
  rw [← dims_eq]
  unfold val_main_v51 val_main_v36
  exact twice_exact _ _ _ _ _ _

/-- THE HOST PROGRAM'S RESULT at entry (r, t), for real inputs. -/
theorem result_entry (x0 : (⟨S1000000, .f32⟩ : BufTy).Contents (Elt Ideal)) (x1 : (⟨S1000000x51, .f32⟩ : BufTy).Contents (Elt Ideal))
    (x2 : (⟨S51, .f32⟩ : BufTy).Contents (Elt Ideal))
    (h0 : ∀ i, ∃ a : ℝ, x0 i = (a : EReal)) (h1 : ∀ i, ∃ a : ℝ, x1 i = (a : EReal)) (h2 : ∀ i, ∃ a : ℝ, x2 i = (a : EReal))
    (r : Fin 1000000) (t : Fin 51) :
    val_main_v51 (F := Ideal) x0 x1 x2 (ix2 r t)
      = ∑ s : Fin 51, x1 (ix2 r s) * hat (pos (x0 (ix1 r)) (x2 (ix1 s))) (atomNo t.val) := by
  have hpos : ∀ (r : Fin 1000000) (s : Fin 51), ∃ x : ℝ, pos (x0 (ix1 r)) (x2 (ix1 s)) = (x : EReal) ∧ 0 ≤ x ∧ x ≤ 50 := by
    intro r s
    obtain ⟨a, ha⟩ := h0 (ix1 r)
    obtain ⟨b, hb⟩ := h2 (ix1 s)
    rw [ha, hb]
    exact pos_real a b
  choose X hX using hpos
  choose P hP using fun (r : Fin 1000000) (s : Fin 51) => h1 (ix2 r s)
  rw [result_unfold]
  refine (scatter_projection _ X P (fun r s => (hX r s).2) _ _ _ _ _
    (fun r t => zero_at r t)
    (fun r s => row_idx_lo x0 x2 r s)
    (fun r s => by rw [col_idx_lo x0 x2 r s, (hX r s).1])
    (fun r s => row_idx_hi x0 x2 r s)
    (fun r s => by rw [col_idx_hi x0 x2 r s, (hX r s).1])
    (fun r s => by rw [lo_at x0 x1 x2 r s, (hX r s).1, hP r s])
    (fun r s => by rw [hi_at x0 x1 x2 r s, (hX r s).1, hP r s])
    r t).trans ?_
  refine Finset.sum_congr rfl fun s _ => ?_
  rw [(hX r s).1, hP r s]

end Cert.Bellman.Ref

end
-- ==== Proof.lean ====
/-
  The certificate of the categorical projection kernel against its host reference.

  Both programs compute, for every row r and target atom t, the same quantity: the sum over the 51 source
  atoms s of the mass probs (r, s) times the share that atom t receives from the atom value atoms s shifted by
  reward r and clamped into the support.  The kernel spells the share as the hat weight max (1 - |x - t|) 0 of
  the fractional position x and accumulates the source atoms in groups; the reference splits the mass between
  the floor and the ceiling of x by linear interpolation and adds the two parts into the row by two
  accumulating scatters.  For finite inputs every position is a real number in [0, 50], where the two
  spellings agree atom by atom.
-/
import proofs.«172951_j42563125903609_2_alg».proof.Defs
import proofs.«172951_j42563125903609_2_alg».proof.Proof.Gen.Kernel
import proofs.«172951_j42563125903609_2_alg».proof.Proof.Gen.Kernel.Skeleton
import proofs.«172951_j42563125903609_2_alg».proof.Proof.Gen.Kernel.Launch
import proofs.«172951_j42563125903609_2_alg».proof.Proof.Gen.Kernel.Points
import proofs.«172951_j42563125903609_2_alg».proof.Proof.Gen.Kernel.Frame
import proofs.«172951_j42563125903609_2_alg».proof.Proof.Gen.KernelIdeal
import proofs.«172951_j42563125903609_2_alg».proof.Proof.Gen.KernelIdeal.Skeleton
import proofs.«172951_j42563125903609_2_alg».proof.Proof.Gen.KernelIdeal.Launch
import proofs.«172951_j42563125903609_2_alg».proof.Proof.Gen.KernelIdeal.Points
import proofs.«172951_j42563125903609_2_alg».proof.Proof.Gen.KernelIdeal.Frame
import proofs.«172951_j42563125903609_2_alg».proof.Proof.Gen.ReferenceIdeal
import proofs.«172951_j42563125903609_2_alg».proof.Proof.Gen.KernelIdeal.Value
import proofs.«172951_j42563125903609_2_alg».proof.Proof.Gen.ReferenceIdeal.Run
import proofs.«172951_j42563125903609_2_alg».proof.Proof.Gen.ReferenceIdeal.Read
import proofs.«172951_j42563125903609_2_alg».proof.Proof.Gen.Pre_finite_inputs
import proofs.«172951_j42563125903609_2_alg».proof.Proof.FiniteInputs
import proofs.«172951_j42563125903609_2_alg».proof.Proof.KernelValue
import proofs.«172951_j42563125903609_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: it runs, and writes no argument. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the finite arguments both programs end with the projection in the result. -/
theorem algebraic : Cert.algebraic_KernelIdeal_ReferenceIdeal := by
  intro m ρ m' ρ' hpre hagree
  refine ⟨_, Cert.Bellman.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2.1, (hagree c).2.2]
  obtain ⟨h0, h1, h2⟩ := Cert.Bellman.real_of_pre _ _ _ (hpre c)
  funext i
  obtain ⟨r, t, rfl⟩ : ∃ (r : Fin 1000000) (t : Fin 51), i = ix2 r t := ⟨i 0, i 1, eq_ix2 i⟩
  show _ = Cert.Bellman.projAt _ _ _ r t
  unfold Cert.Bellman.projAt
  exact Cert.Bellman.Ref.result_entry _ _ _ h0 h1 h2 r t

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
